-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : IVec S1024x512 32) (main_arg1 : FVec F S8192 .f32) (main_arg2 : FVec F S8192x8192 .f32) : IVec S_ 1 :=
  let main_v0 : FVec F S8192 .f32 := Host.absf main_arg1
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S1024x512 : Shape := ⟨2, ![1024, 512]⟩
abbrev S8192 : Shape := ⟨1, ![8192]⟩
abbrev S8192x8192 : Shape := ⟨2, ![8192, 8192]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S_ : Shape := ⟨0, ![]⟩
abbrev S1 : Shape := ⟨1, ![1]⟩
abbrev S1024x1 : Shape := ⟨2, ![1024, 1]⟩
abbrev S1024 : Shape := ⟨1, ![1024]⟩
abbrev S1024x511 : Shape := ⟨2, ![1024, 511]⟩
abbrev S1024x511x1 : Shape := ⟨3, ![1024, 511, 1]⟩
abbrev S1024x511x2 : Shape := ⟨3, ![1024, 511, 2]⟩

abbrev nBuf : Space → Nat
  | .hbm => 63
  | .vmem => 4
  | .smem => 0
  | _ => 0

abbrev bufTy : (tb : Table) → Fin (tcTables nBuf tb) → BufTy
  | .hbm, ⟨0, _⟩ => ⟨S1024x512, .i32⟩
  | .hbm, ⟨1, _⟩ => ⟨S8192, .f32⟩
  | .hbm, ⟨2, _⟩ => ⟨S8192x8192, .f32⟩
  | .hbm, ⟨3, _⟩ => ⟨S8192x1, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S8192, .f32⟩
  | .hbm, ⟨18, _⟩ => ⟨S8192, .f32⟩
  | .hbm, ⟨19, _⟩ => ⟨S1024x1, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024, .f32⟩
  | .hbm, ⟨30, _⟩ => ⟨S1024x511, .i32⟩
  | .hbm, ⟨31, _⟩ => ⟨S1024x511, .i32⟩
  | .hbm, ⟨32, _⟩ => ⟨S_, .i32⟩
  | .hbm, ⟨33, _⟩ => ⟨S1024x511, .i32⟩
  | .hbm, ⟨34, _⟩ => ⟨S1024x511, .i1⟩
  | .hbm, ⟨35, _⟩ => ⟨S_, .i32⟩
  | .hbm, ⟨36, _⟩ => ⟨S1024x511, .i32⟩
  | .hbm, ⟨37, _⟩ => ⟨S1024x511, .i32⟩
  | .hbm, ⟨38, _⟩ => ⟨S1024x511, .i32⟩
  | .hbm, ⟨39, _⟩ => ⟨S_, .i32⟩
  | .hbm, ⟨40, _⟩ => ⟨S1024x511, .i32⟩
  | .hbm, ⟨41, _⟩ => ⟨S1024x511, .i1⟩
  | .hbm, ⟨42, _⟩ => ⟨S_, .i32⟩
  | .hbm, ⟨43, _⟩ => ⟨S1024x511, .i32⟩
  | .hbm, ⟨44, _⟩ => ⟨S1024x511, .i32⟩
  | .hbm, ⟨45, _⟩ => ⟨S1024x511, .i32⟩
  | .hbm, ⟨46, _⟩ => ⟨S1024x511x1, .i32⟩
  | .hbm, ⟨47, _⟩ => ⟨S1024x511x1, .i32⟩
  | .hbm, ⟨48, _⟩ => ⟨S1024x511x2, .i32⟩
  | .hbm, ⟨49, _⟩ => ⟨S1024x511, .f32⟩
  | .hbm, ⟨50, _⟩ => ⟨S_, .i32⟩
  | .hbm, ⟨51, _⟩ => ⟨S1024x511, .i32⟩
  | .hbm, ⟨52, _⟩ => ⟨S1024x511, .i1⟩
  | .hbm, ⟨53, _⟩ => ⟨S_, .i32⟩
  | .hbm, ⟨54, _⟩ => ⟨S1024x511, .i32⟩
  | .hbm, ⟨55, _⟩ => ⟨S1024x511, .i32⟩
  | .hbm, ⟨56, _⟩ => ⟨S1024x511, .i32⟩
  | .hbm, ⟨57, _⟩ => ⟨S1024x511x1, .i32⟩
  | .hbm, ⟨58, _⟩ => ⟨S1024x511, .f32⟩
  | .hbm, ⟨59, _⟩ => ⟨S1024x511, .f32⟩
  | .hbm, ⟨60, _⟩ => ⟨S_, .f32⟩
  | .hbm, ⟨61, _⟩ => ⟨S1024, .f32⟩
  | .hbm, ⟨62, _⟩ => ⟨S1024, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | _, _ => ⟨S1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  broadcasts_S512x1_S512x8192 : S512x1.Broadcasts S512x8192
  inb_S512x1_S512x1_0_0 : ∀ a, (![0, 0] : Fin 2 → Nat) a + S512x1.size a ≤ S512x1.size a
  h_S512x1 : 0 < S512x1.numel
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  slices_S1024x512_S1024x1_0_0 : S1024x512.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x512_S1024x511_0_0 : S1024x512.Slices ![0, 0] S1024x511
  slices_S1024x512_S1024x511_0_1 : S1024x512.Slices ![0, 1] S1024x511
  bcast_S_S1024x511 : S_.BroadcastsInDim S1024x511 (![] : Fin 0 → Fin S1024x511.rank)
  bcast_S1024x511_S1024x511x1_0_1 : S1024x511.BroadcastsInDim S1024x511x1 (![0, 1] : Fin 2 → Fin S1024x511x1.rank)
  concatenates_S1024x511x1_S1024x511x1_S1024x511x2_d2 : Shape.Concatenates [S1024x511x1, S1024x511x1] S1024x511x2 2
  reducesTo_S1024x511_S1024_d1 : S1024x511.ReducesTo [1] S1024
  gather_S8192_S1024x1_S1024_n_0_n_n_0_1_1_wf : GatherDims.WF S8192 S1024x1 S1024 [] [0] [] [0] [] 1 ![1]
  gather_S8192x8192_S1024x511x2_S1024x511_n_01_n_n_01_2_11_wf : GatherDims.WF S8192x8192 S1024x511x2 S1024x511 [] [0, 1] [] [0, 1] [] 2 ![1, 1]
  gather_S8192_S1024x511x1_S1024x511_n_0_n_n_0_2_1_wf : GatherDims.WF S8192 S1024x511x1 S1024x511 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)

variable [Facts₀]

def gather_S8192_S1024x1_S1024_n_0_n_n_0_1_1 : GatherDims S8192 S1024x1 S1024 where
  offsetDims := []
  collapsedSliceDims := [0]
  operandBatchingDims := []
  startIndicesBatchingDims := []
  startIndexMap := [0]
  indexVectorDim := 1
  sliceSizes := ![1]
  wf := gather_S8192_S1024x1_S1024_n_0_n_n_0_1_1_wf
def gather_S8192x8192_S1024x511x2_S1024x511_n_01_n_n_01_2_11 : GatherDims S8192x8192 S1024x511x2 S1024x511 where
  offsetDims := []
  collapsedSliceDims := [0, 1]
  operandBatchingDims := []
  startIndicesBatchingDims := []
  startIndexMap := [0, 1]
  indexVectorDim := 2
  sliceSizes := ![1, 1]
  wf := gather_S8192x8192_S1024x511x2_S1024x511_n_01_n_n_01_2_11_wf
def gather_S8192_S1024x511x1_S1024x511_n_0_n_n_0_2_1 : GatherDims S8192 S1024x511x1 S1024x511 where
  offsetDims := []
  collapsedSliceDims := [0]
  operandBatchingDims := []
  startIndicesBatchingDims := []
  startIndexMap := [0]
  indexVectorDim := 2
  sliceSizes := ![1]
  wf := gather_S8192_S1024x511x1_S1024x511_n_0_n_n_0_2_1_wf

abbrev win0_0 : Pipeline.Window sig grid0 :=
  Pipeline.Window.ofSpec (Memref.whole main_arg2) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S8192 : Shape := ⟨1, ![8192]⟩
abbrev S8192x8192 : Shape := ⟨2, ![8192, 8192]⟩
abbrev S_ : Shape := ⟨0, ![]⟩
abbrev S1 : Shape := ⟨1, ![1]⟩
abbrev S8192x1 : Shape := ⟨2, ![8192, 1]⟩
abbrev S1024x1 : Shape := ⟨2, ![1024, 1]⟩
abbrev S1024 : Shape := ⟨1, ![1024]⟩
abbrev S1024x511 : Shape := ⟨2, ![1024, 511]⟩
abbrev S1024x511x1 : Shape := ⟨3, ![1024, 511, 1]⟩
abbrev S1024x511x2 : Shape := ⟨3, ![1024, 511, 2]⟩

abbrev nBuf : Space → Nat
  | .hbm => 66
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S8192, .f32⟩
  | .hbm, ⟨2, _⟩ => ⟨S8192x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S1024x1, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S1024, .f32⟩
  | .hbm, ⟨43, _⟩ => ⟨S1024x511, .i32⟩
  | .hbm, ⟨44, _⟩ => ⟨S1024x511, .i32⟩
  | .hbm, ⟨45, _⟩ => ⟨S_, .i32⟩
  | .hbm, ⟨46, _⟩ => ⟨S1024x511, .i32⟩
  | .hbm, ⟨47, _⟩ => ⟨S1024x511, .i1⟩
  | .hbm, ⟨48, _⟩ => ⟨S_, .i32⟩
  | .hbm, ⟨49, _⟩ => ⟨S1024x511, .i32⟩
  | .hbm, ⟨50, _⟩ => ⟨S1024x511, .i32⟩
  | .hbm, ⟨51, _⟩ => ⟨S1024x511, .i32⟩
  | .hbm, ⟨52, _⟩ => ⟨S_, .i32⟩
  | .hbm, ⟨53, _⟩ => ⟨S1024x511, .i32⟩
  | .hbm, ⟨54, _⟩ => ⟨S1024x511, .i1⟩
  | .hbm, ⟨55, _⟩ => ⟨S_, .i32⟩
  | .hbm, ⟨56, _⟩ => ⟨S1024x511, .i32⟩
  | .hbm, ⟨57, _⟩ => ⟨S1024x511, .i32⟩
  | .hbm, ⟨58, _⟩ => ⟨S1024x511, .i32⟩
  | .hbm, ⟨59, _⟩ => ⟨S1024x511x1, .i32⟩
  | .hbm, ⟨60, _⟩ => ⟨S1024x511x1, .i32⟩
  | .hbm, ⟨61, _⟩ => ⟨S1024x511x2, .i32⟩
  | .hbm, ⟨62, _⟩ => ⟨S1024x511, .f32⟩
  | .hbm, ⟨63, _⟩ => ⟨S_, .f32⟩
  | .hbm, ⟨64, _⟩ => ⟨S1024, .f32⟩
  | .hbm, ⟨65, _⟩ => ⟨S1024, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_v0 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_1 : Ref sig .tc := ⟨.hbm, 45, rfl⟩
abbrev main_v13 : Ref sig .tc := ⟨.hbm, 46, rfl⟩
abbrev main_v14 : Ref sig .tc := ⟨.hbm, 47, rfl⟩
abbrev main_c_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_c_3 : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst : Ref sig .tc := ⟨.hbm, 63, rfl⟩
abbrev main_v27 : Ref sig .tc := ⟨.hbm, 64, rfl⟩
abbrev main_v28 : Ref sig .tc := ⟨.hbm, 65, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  slices_S1024x512_S1024x1_0_0 : S1024x512.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x512_S1024x511_0_0 : S1024x512.Slices ![0, 0] S1024x511
  slices_S1024x512_S1024x511_0_1 : S1024x512.Slices ![0, 1] S1024x511
  bcast_S_S1024x511 : S_.BroadcastsInDim S1024x511 (![] : Fin 0 → Fin S1024x511.rank)
  bcast_S1024x511_S1024x511x1_0_1 : S1024x511.BroadcastsInDim S1024x511x1 (![0, 1] : Fin 2 → Fin S1024x511x1.rank)
  concatenates_S1024x511x1_S1024x511x1_S1024x511x2_d2 : Shape.Concatenates [S1024x511x1, S1024x511x1] S1024x511x2 2
  reducesTo_S1024x511_S1024_d1 : S1024x511.ReducesTo [1] S1024
  gather_S8192_S1024x1_S1024_n_0_n_n_0_1_1_wf : GatherDims.WF S8192 S1024x1 S1024 [] [0] [] [0] [] 1 ![1]
  gather_S8192x8192_S1024x511x2_S1024x511_n_01_n_n_01_2_11_wf : GatherDims.WF S8192x8192 S1024x511x2 S1024x511 [] [0, 1] [] [0, 1] [] 2 ![1, 1]

variable [Facts₀]

def gather_S8192_S1024x1_S1024_n_0_n_n_0_1_1 : GatherDims S8192 S1024x1 S1024 where
  offsetDims := []
  collapsedSliceDims := [0]
  operandBatchingDims := []
  startIndicesBatchingDims := []
  startIndexMap := [0]
  indexVectorDim := 1
  sliceSizes := ![1]
  wf := gather_S8192_S1024x1_S1024_n_0_n_n_0_1_1_wf
def gather_S8192x8192_S1024x511x2_S1024x511_n_01_n_n_01_2_11 : GatherDims S8192x8192 S1024x511x2 S1024x511 where
  offsetDims := []
  collapsedSliceDims := [0, 1]
  operandBatchingDims := []
  startIndicesBatchingDims := []
  startIndexMap := [0, 1]
  indexVectorDim := 2
  sliceSizes := ![1, 1]
  wf := gather_S8192x8192_S1024x511x2_S1024x511_n_01_n_n_01_2_11_wf

class Facts : Prop extends Facts₀ where

variable [Facts]
-- ==== Proof.LseLaw.lean ====
/-
  Log-sum-exp of a row of extended reals, and the one law the certificate rests on.

  For a row `x : Fin n → EReal` write `m = max_k x k` (a fold of `max` from −∞), `S = ∑_k exp (x k − m)` and
  `lse x = m + log S`. A log-softmax entry is `(a − m) − log S`; the same entry written against the row's
  log-sum-exp is `a − (m + log S)`. On the extended reals the two agree as soon as `a` and `m` are real numbers,
  WHATEVER `log S` is (a real, +∞ or −∞): subtraction of a sum splits when the first summand is finite. The row
  maximum is a real number when the row is not empty and every entry is one.
-/
import Idealize.ShloMosaic.PureOps.Ideal
import Idealize.ShloMosaic.PureOps.Ideal.Laws

noncomputable section

open scoped BigOperators

namespace Cert.LseLaw

open Idealize.ShloMosaic

/-- The word of f32's −∞, read at the ideal values. -/
abbrev negInf : EReal := Ideal.ofBits .f32 0xFF800000#32

theorem negInf_eq : negInf = ⊥ := by simp [negInf, Ideal.ofBits, Ideal.ieee]

/-- The maximum of a row, folded from −∞. -/
def rowMax {n : Nat} (x : Fin n → EReal) : EReal := (Finset.univ : Finset (Fin n)).fold max negInf x

/-- The sum of the row's exponentials, each taken after the row maximum is subtracted. -/
def rowSumExp {n : Nat} (x : Fin n → EReal) : EReal := ∑ k : Fin n, Ideal.exp (x k - rowMax x)

/-- The row's log-sum-exp, in the stable form: maximum plus the logarithm of the shifted sum. -/
def lse {n : Nat} (x : Fin n → EReal) : EReal := rowMax x + Ideal.log (rowSumExp x)

/-- A maximum against −∞ is the other operand. -/
theorem max_negInf (y : EReal) : max negInf y = y := by rw [negInf_eq]; exact max_bot_left y

/-- The row maximum of real entries is not +∞ … -/
theorem rowMax_ne_top {n : Nat} (x : Fin n → EReal) (hx : ∀ k, x k ≠ ⊤) : rowMax x ≠ ⊤ := by
  have h : rowMax x < ⊤ := by
    unfold rowMax
    rw [Finset.fold_max_lt]
    exact ⟨by rw [negInf_eq]; exact bot_lt_top, fun k _ => lt_top_iff_ne_top.mpr (hx k)⟩
  exact ne_of_lt h

/-- … and, when the row has an entry, not −∞. -/
theorem rowMax_ne_bot {n : Nat} (x : Fin n → EReal) (hn : 0 < n) (hx : ∀ k, x k ≠ ⊥) : rowMax x ≠ ⊥ := by
  have h : x ⟨0, hn⟩ ≤ rowMax x := by
    unfold rowMax
    rw [Finset.le_fold_max]
    exact Or.inr ⟨⟨0, hn⟩, Finset.mem_univ _, le_refl _⟩
  intro hb
  rw [hb] at h
  exact hx ⟨0, hn⟩ (le_bot_iff.mp h)

/-- Subtracting a sum whose first summand is real: `(a − m) − l = a − (m + l)` for real `a`, `m` and any `l`. -/
theorem sub_sub_eq_sub_add (a m l : EReal) (ha : a ≠ ⊤) (ha' : a ≠ ⊥) (hm : m ≠ ⊤) (hm' : m ≠ ⊥) :
    (a - m) - l = a - (m + l) := by
  lift a to ℝ using ⟨ha, ha'⟩
  lift m to ℝ using ⟨hm, hm'⟩
  induction l using EReal.rec with
  | bot => simp [sub_eq_add_neg]
  | top => simp [sub_eq_add_neg]
  | coe l => norm_cast; ring

/-- THE LAW: a log-softmax entry of a row of real numbers is the entry less the row's log-sum-exp. -/
theorem logSoftmax_eq_sub_lse {n : Nat} (x : Fin n → EReal) (hn : 0 < n) (hx : ∀ k, x k ≠ ⊤) (hx' : ∀ k, x k ≠ ⊥)
    (a : EReal) (ha : a ≠ ⊤) (ha' : a ≠ ⊥) :
    (a - rowMax x) - Ideal.log (rowSumExp x) = a - lse x :=
  sub_sub_eq_sub_add a (rowMax x) _ ha ha' (rowMax_ne_top x hx) (rowMax_ne_bot x hn hx')

end Cert.LseLaw

end
-- ==== Proof.KernelRow.lean ====
/-
  What the kernel body stores, read one row at a time: entry `(p, 0)` of the body's [512, 1] result is the
  log-sum-exp of row `p` of its [512, 8192] input block — the row's maximum (a lane reduction from −∞, kept as a
  column and broadcast back over the row) plus the logarithm of the lane sum of `exp (x − max)`.
-/
import proofs.«153432_j81655918231782_2_alg».proof.Proof.Gen.KernelIdeal.Skeleton
import proofs.«153432_j81655918231782_2_alg».proof.Proof.LseLaw
import Idealize.ShloMosaic.Lib.ValueIdx
import Idealize.ShloMosaic.Lib.Pipeline.Value
import Idealize.ShloMosaic.PureOps.Ideal.Laws

noncomputable section

open scoped BigOperators

namespace Cert.KernelIdeal.Row

open Idealize.ShloMosaic Idealize.ShloMosaic.ValueIdx Cert.KernelIdeal Cert.KernelIdeal.Gen Cert.LseLaw

/-- Row `p` of a [512, 8192] block, as a function of the lane. -/
abbrev rowOf (x : FVec Ideal S512x8192 .f32) (p : Fin 512) : Fin 8192 → EReal := fun k => x (ix2 p k)

/-- Reducing over the lanes: the reduced index `p` with lane `k` put back is `(p, k)`. -/
theorem lift_row (h : S512x8192.Reduces [1] S512) (p : Fin 512) (k : Fin (S512x8192.size 1)) :
    h.lift (ix1 p) k = ix2 p (⟨k.val, k.isLt⟩ : Fin 8192) := by
  funext c; apply Fin.ext
  fin_cases c <;> rfl

/-- A [512] vector kept as a [512, 1] column reads, at `(p, 0)`, its entry `p`. -/
theorem colCast_apply (v : FVec Ideal S512 .f32) (h : S512.ShapeCasts S512x1) (p : Fin 512) (z : Fin 1) :
    shapeCast S512x1 v h (ix2 p z) = v (ix1 p) :=
  shapeCast_apply v h (ix2 p z) (ix1 p) (by
    rewrite [Shape.rowMajor_val_one, Shape.rowMajor_val_two]
    show p.val = p.val * 1 + z.val
    have := z.isLt; omega)

/-- A [512, 1] column broadcast over the lanes reads, at `(p, k)`, its entry `(p, 0)`. -/
theorem rowBcast_apply (v : FVec Ideal S512x1 .f32) (h : S512x1.Broadcasts S512x8192) (p : Fin 512) (k : Fin 8192) :
    broadcastTo S512x8192 v h (ix2 p k) = v (ix2 p (0 : Fin 1)) :=
  broadcastTo_apply v h (ix2 p k) (ix2 p (0 : Fin 1)) (fun a => match a with
    | ⟨0, _⟩ => by show p.val = if (512 : Nat) = 1 then 0 else p.val; rw [if_neg (by decide)]
    | ⟨1, _⟩ => by show 0 = if (1 : Nat) = 1 then 0 else k.val; rw [if_pos rfl])

/-- The lane maximum of a block from −∞, at row `p`, is the row's maximum. -/
theorem blockMax_apply (x : FVec Ideal S512x8192 .f32) (h : S512x8192.Reduces [1] S512) (hφ : FKind.Formats .f32)
    (hacc : (0xFF800000#32 : BitVec 32) = FKind.maximumf.neutral .f32 hφ) (p : Fin 512) :
    multiReduction .maximumf [1] S512 x 0xFF800000#32 h hφ hacc (ix1 p) = rowMax (rowOf x p) := by
  refine (Ideal.multiReduction_maximumf_single x 0xFF800000#32 h hφ hacc (ix1 p)).trans ?_
  unfold rowMax
  have hf : (x ∘ h.lift (ix1 p)) = fun k : Fin 8192 => x (ix2 p k) := funext fun k => congrArg x (lift_row h p k)
  exact congrArg (fun f => Finset.fold max (Ideal.ofBits .f32 0xFF800000#32) f (Finset.univ : Finset (Fin 8192))) hf

/-- The lane sum of a block from zero, at row `p`, is the sum over the row. -/
theorem blockSum_apply (y : FVec Ideal S512x8192 .f32) (h : S512x8192.Reduces [1] S512) (hφ : FKind.Formats .f32)
    (hacc : (0x00000000#32 : BitVec 32) = FKind.add.neutral .f32 hφ) (p : Fin 512) :
    multiReduction .add [1] S512 y 0x00000000#32 h hφ hacc (ix1 p) = ∑ k : Fin 8192, y (ix2 p k) :=
  (Ideal.multiReduction_add_single y 0x00000000#32 h hφ hacc (ix1 p)).trans
    (Finset.sum_congr rfl fun k _ => congrArg y (lift_row h p k))

/-- THE PAYLOAD AT A ROW: the body's stored value at `(p, 0)` is the log-sum-exp of row `p` of the block. -/
theorem pay_apply (x : Vec Ideal S512x8192 .f32) (p : Fin 512) (z : Fin 1) :
    k0_pay1 (F := Ideal) x (ix2 p z) = lse (rowOf x p) := by
  unfold k0_pay1 lse
  dsimp only
  refine (addf_apply _ _ _).trans (congrArg₂ (fun a b : EReal => a + b) ?_ (congrArg Ideal.log ?_))
  · exact (colCast_apply _ _ p z).trans (blockMax_apply x _ _ _ p)
  · refine (colCast_apply _ _ p z).trans ((blockSum_apply _ _ _ _ p).trans ?_)
    unfold rowSumExp
    refine Finset.sum_congr rfl fun k _ => ?_
    refine congrArg (fun t : EReal => Ideal.exp (x (ix2 p k) - t)) ?_
    exact (rowBcast_apply _ _ p k).trans ((colCast_apply _ _ p 0).trans (blockMax_apply x _ _ _ p))

end Cert.KernelIdeal.Row

end
-- ==== Proof.KernelArray.lean ====
/-
  The kernel's output array after the sixteen grid points. Point `t` loads rows `512 t … 512 t + 511` of the
  matrix whole (all 8192 lanes) and writes back the 512 log-sum-exps of those rows as block `t` of the [8192, 1]
  output; the sixteen blocks tile the output, so it ends holding, at `(r, 0)`, the log-sum-exp of row `r` of the
  matrix.
-/
import proofs.«153432_j81655918231782_2_alg».proof.Proof.Gen.KernelIdeal.Frame
import proofs.«153432_j81655918231782_2_alg».proof.Proof.KernelRow
import Idealize.ShloMosaic.Lib.Pipeline.Value

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.LseLaw Cert.KernelIdeal.Row

variable (m : (ℓ : Loc nD τ sig) → Buf (Elt Ideal) ℓ)

theorem hz : (![0, 0] : Fin 2 → Nat) = fun _ => 0 := funext fun a => by fin_cases a <;> rfl

/-- Row `r` of the [8192, 8192] matrix, as a function of the column. -/
abbrev matRow (M : S8192x8192.Idx → EReal) (r : Fin 8192) : Fin 8192 → EReal := fun k => M (ix2 r k)

/-- The column of the matrix's row log-sum-exps, as an [8192, 1] array. -/
def lseCol (M : S8192x8192.Idx → EReal) : S8192x1.Idx → EReal :=
  fun i => lse (matRow M (⟨(i 0).val, idx2_lt0 i⟩ : Fin 8192))

/-- The printed index maps over the grid: both windows are at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t`, entry `(p, k)`, is the matrix at `(512 t + p, k)`. -/
theorem iblk_apply (c : Dev nD) (t : Fin cfg0.N) (p : Fin 512) (k : Fin 8192) (r : Fin 8192)
    (hr : r.val = 512 * t.val + p.val) :
    (iblk m c 0 t : Vec Ideal S512x8192 .f32) (ix2 p k) = (V m c main_arg2 : S8192x8192.Idx → EReal) (ix2 r k) := by
  obtain ⟨e0, e1, e2, e3⟩ := idx_facts t
  unfold iblk
  rw [View.read_apply]
  show V m c main_arg2 _ = V m c main_arg2 _
  congr 1
  funext a; apply Fin.ext
  match a with
  | ⟨0, _⟩ => show win0_0.index t (0 : Fin 2) * 512 + 1 * p.val = r.val; rw [e0, hr]; omega
  | ⟨1, _⟩ => show win0_0.index t (1 : Fin 2) * 8192 + 1 * k.val = k.val; rw [e1]; omega

/-- WHAT POINT `t` WRITES BACK is block `t` of the column of row log-sum-exps. -/
theorem flushed_eq (c : Dev nD) (t : Fin cfg0.N) :
    (dats m 0 c).flushed 1 t
      = ((cfg0.win 1).blk t).view.read (Elt Ideal) (lseCol (V m c main_arg2 : S8192x8192.Idx → EReal)) := by
  show (cfg0.win 1).cut (grid0.coords t) ((dats m 0 c).after 1 t) = _
  rw [after0_1]
  unfold out0_1
  rw [View.canon_unit_zero hz]
  simp only [View.ld_unit_zero (S := S512x8192) hz]
  obtain ⟨e0, e1, e2, e3⟩ := idx_facts t
  funext j
  obtain ⟨p, z, rfl⟩ : ∃ (p : Fin 512) (z : Fin 1), j = ix2 p z := ⟨j 0, j 1, eq_ix2 j⟩
  show k0_pay1 (F := Ideal) (iblk m c 0 t) (ix2 p z)
    = lseCol (V m c main_arg2 : S8192x8192.Idx → EReal) (((cfg0.win 1).blk t).view.emb (ix2 p z))
  refine (pay_apply (iblk m c 0 t) p z).trans ?_
  unfold lseCol
  refine congrArg lse (funext fun k => ?_)
  exact iblk_apply m c t p k _ (by
    show win0_1.index t (0 : Fin 2) * 512 + 1 * p.val = 512 * t.val + p.val; rw [e2]; omega)

/-- An index of the output is in point `t`'s block iff each coordinate is in the block's range on its axis. -/
theorem mem_blk (t : Fin cfg0.N) (i : S8192x1.Idx) :
    i ∈ ((cfg0.win 1).blk t).view.set ↔ ∀ a : Fin 2, win0_1.index t a * S512x1.size a ≤ (i a).val
      ∧ (i a).val < win0_1.index t a * S512x1.size a + S512x1.size a := by
  show i ∈ ((View.whole main_v0).slice (win0_1.rect t)).set ↔ _
  rw [View.set_slice_whole, Rect.mem_set_unit]
  exact Iff.rfl

/-- Every index of the output is in some point's block: row `r` is written at point `r / 512`. -/
theorem cover (i : S8192x1.Idx) :
    ∃ t : Fin cfg0.N, (cfg0.win 1).flush t = true ∧ i ∈ ((cfg0.win 1).blk t).view.set := by
  have hN : cfg0.N = 16 := N_0
  have hi0 : (i 0).val < 8192 := idx2_lt0 i
  have hi1 : (i 1).val < 1 := idx2_lt1 i
  have hq : (i 0).val / 512 < cfg0.N := by rw [hN]; omega
  refine ⟨⟨(i 0).val / 512, hq⟩, flush0_1 _, ?_⟩
  rw [mem_blk]
  obtain ⟨e0, e1, e2, e3⟩ := idx_facts ⟨(i 0).val / 512, hq⟩
  intro a
  match a with
  | ⟨0, _⟩ =>
    show win0_1.index ⟨(i 0).val / 512, hq⟩ (0 : Fin 2) * 512 ≤ (i 0).val
      ∧ (i 0).val < win0_1.index ⟨(i 0).val / 512, hq⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, hq⟩ (1 : Fin 2) * 1 ≤ (i 1).val
      ∧ (i 1).val < win0_1.index ⟨(i 0).val / 512, hq⟩ (1 : Fin 2) * 1 + 1
    rw [e3]; omega

/-- THE OUTPUT ARRAY after the run: the column of the matrix's row log-sum-exps. -/
theorem final_lse (c : Dev nD) :
    (dats m 0 c).arrAt 1 cfg0.N = lseCol (V m c main_arg2 : S8192x8192.Idx → EReal) :=
  (dats m 0 c).arrAt_eq_of_cover 1 (lseCol (V m c main_arg2 : S8192x8192.Idx → EReal))
    (fun t _ => flushed_eq m c t) (cover)

end Cert.KernelIdeal.Arr

end
-- ==== Proof.HostTail.lean ====
/-
  The host-side terms the two programs share, over literal shapes and with no program imported.

  Both programs end the same way: the initial state's log-probability `log_softmax(v)[x[b, 0]]` plus, for each
  batch row, the sum over `t` of a transition term `T[b, t]`. They differ only in `T`:
    the kernel's     `T = M[p, q] − lse[p]`            (two gathers, then a subtraction),
    the reference's  `T = log_softmax(M)[p, q]`        (one gather of the log-softmax matrix),
  with `p = x[b, t]`, `q = x[b, t + 1]` after jnp's wrap of negative indices (`i < 0 ↦ i + 8192`), and every
  gather clamping its start indices into the array.
-/
import Idealize.ShloMosaic.PureOps

noncomputable section

namespace Cert.Tail

open Idealize.ShloMosaic

abbrev S1024x512 : Shape := ⟨2, ![1024, 512]⟩
abbrev S8192 : Shape := ⟨1, ![8192]⟩
abbrev S8192x8192 : Shape := ⟨2, ![8192, 8192]⟩
abbrev S8192x1 : Shape := ⟨2, ![8192, 1]⟩
abbrev S_ : Shape := ⟨0, ![]⟩
abbrev S1 : Shape := ⟨1, ![1]⟩
abbrev S1024x1 : Shape := ⟨2, ![1024, 1]⟩
abbrev S1024 : Shape := ⟨1, ![1024]⟩
abbrev S1024x511 : Shape := ⟨2, ![1024, 511]⟩
abbrev S1024x511x1 : Shape := ⟨3, ![1024, 511, 1]⟩
abbrev S1024x511x2 : Shape := ⟨3, ![1024, 511, 2]⟩

/-! The shape relations the operations take, decided on the literal shapes. -/
theorem h_S_ : 0 < S_.numel := by decide
theorem red_S8192 : S8192.ReducesTo [0] S_ := by decide
theorem red_S8192x8192 : S8192x8192.ReducesTo [1] S8192 := by decide
theorem red_S1024x511 : S1024x511.ReducesTo [1] S1024 := by decide
theorem bc_S_S1 : S_.BroadcastsInDim S1 (![] : Fin 0 → Fin S1.rank) := by decide
theorem bc_S1_S8192 : S1.BroadcastsInDim S8192 (![0] : Fin 1 → Fin S8192.rank) := by decide
theorem bc_S_S8192 : S_.BroadcastsInDim S8192 (![] : Fin 0 → Fin S8192.rank) := by decide
theorem bc_S8192_S8192x1 : S8192.BroadcastsInDim S8192x1 (![0] : Fin 1 → Fin S8192x1.rank) := by decide
theorem bc_S8192x1_S8192x8192 : S8192x1.BroadcastsInDim S8192x8192 (![0, 1] : Fin 2 → Fin S8192x8192.rank) := by decide
theorem sl_first : S1024x512.Slices ![0, 0] S1024x1 := by decide
theorem sc_S1024x1_S1024 : S1024x1.ShapeCasts S1024 := by decide
theorem bc_S_S1024 : S_.BroadcastsInDim S1024 (![] : Fin 0 → Fin S1024.rank) := by decide
theorem bc_S1024_S1024x1 : S1024.BroadcastsInDim S1024x1 (![0] : Fin 1 → Fin S1024x1.rank) := by decide
theorem sl_prev : S1024x512.Slices ![0, 0] S1024x511 := by decide
theorem sl_next : S1024x512.Slices ![0, 1] S1024x511 := by decide
theorem bc_S_S1024x511 : S_.BroadcastsInDim S1024x511 (![] : Fin 0 → Fin S1024x511.rank) := by decide
theorem bc_S1024x511_S1024x511x1 : S1024x511.BroadcastsInDim S1024x511x1 (![0, 1] : Fin 2 → Fin S1024x511x1.rank) := by decide
theorem cat_pair : Shape.Concatenates [S1024x511x1, S1024x511x1] S1024x511x2 2 := by decide
theorem sc_S8192x1_S8192 : S8192x1.ShapeCasts S8192 := by decide
theorem gFirst_wf : GatherDims.WF S8192 S1024x1 S1024 [] [0] [] [0] [] 1 ![1] := by decide
theorem gPair_wf : GatherDims.WF S8192x8192 S1024x511x2 S1024x511 [] [0, 1] [] [0, 1] [] 2 ![1, 1] := by decide
theorem gRow_wf : GatherDims.WF S8192 S1024x511x1 S1024x511 [] [0] [] [0] [] 2 ![1] := by decide

/-- `v[i]` of a flat array at a [1024, 1] column of indices. -/
def gFirst : GatherDims S8192 S1024x1 S1024 where
  offsetDims := []
  collapsedSliceDims := [0]
  operandBatchingDims := []
  startIndicesBatchingDims := []
  startIndexMap := [0]
  indexVectorDim := 1
  sliceSizes := ![1]
  wf := gFirst_wf
/-- `M[p, q]` of the matrix at a [1024, 511, 2] array of index pairs. -/
def gPair : GatherDims S8192x8192 S1024x511x2 S1024x511 where
  offsetDims := []
  collapsedSliceDims := [0, 1]
  operandBatchingDims := []
  startIndicesBatchingDims := []
  startIndexMap := [0, 1]
  indexVectorDim := 2
  sliceSizes := ![1, 1]
  wf := gPair_wf
/-- `v[p]` of a flat array at a [1024, 511, 1] array of indices. -/
def gRow : GatherDims S8192 S1024x511x1 S1024x511 where
  offsetDims := []
  collapsedSliceDims := [0]
  operandBatchingDims := []
  startIndicesBatchingDims := []
  startIndexMap := [0]
  indexVectorDim := 2
  sliceSizes := ![1]
  wf := gRow_wf

variable {F : FTy → Type} [FloatOps F]

/-! ## The indices -/

/-- jnp's wrap of a negative index: `i < 0 ↦ i + 8192`, elementwise. -/
def wrap (s : Shape) (h : S_.BroadcastsInDim s (![] : Fin 0 → Fin s.rank)) (v : IVec s 32) : IVec s 32 :=
  select (cmpi .slt v (broadcastInDim s ![] h (constantI S_ 32 0#32)))
    (addi v (broadcastInDim s ![] h (constantI S_ 32 8192#32))) v

/-- `x[:, 0]`, wrapped, as the [1024, 1] column of start indices of the first gather. -/
def idxFirst (x : IVec S1024x512 32) : IVec S1024x1 32 :=
  broadcastInDim S1024x1 ![0] bc_S1024_S1024x1
    (wrap S1024 bc_S_S1024 (shapeCast S1024 (extractStridedSlice S1024x1 ![0, 0] x sl_first) sc_S1024x1_S1024))

/-- `x[:, :-1]`, wrapped: the state a transition leaves. -/
def prev (x : IVec S1024x512 32) : IVec S1024x511 32 :=
  wrap S1024x511 bc_S_S1024x511 (extractStridedSlice S1024x511 ![0, 0] x sl_prev)

/-- `x[:, 1:]`, wrapped: the state a transition enters. -/
def next (x : IVec S1024x512 32) : IVec S1024x511 32 :=
  wrap S1024x511 bc_S_S1024x511 (extractStridedSlice S1024x511 ![0, 1] x sl_next)

/-- A [1024, 511] index array with a trailing unit axis. -/
def unitLast (v : IVec S1024x511 32) : IVec S1024x511x1 32 :=
  broadcastInDim S1024x511x1 ![0, 1] bc_S1024x511_S1024x511x1 v

/-- The index pairs `(p, q)`. -/
def idxPair (x : IVec S1024x512 32) : IVec S1024x511x2 32 :=
  concatenate S1024x511x2 2 [⟨S1024x511x1, unitLast (prev x)⟩, ⟨S1024x511x1, unitLast (next x)⟩] cat_pair

/-- The indices `p` alone. -/
def idxRow (x : IVec S1024x512 32) : IVec S1024x511x1 32 := unitLast (prev x)

/-! ## The log-softmaxes, as jax lowers them -/

/-- `log_softmax` of the initial-state vector. -/
def logSoftmaxVec (v : FVec F S8192 .f32) : FVec F S8192 .f32 :=
  subf
    (subf v (broadcastInDim S8192 ![0] bc_S1_S8192 (broadcastInDim S1 ![] bc_S_S1
      (maximumf (constant S_ .f32 0xFF800000#32) (Host.reduce FloatOps.maximumf v (constant S_ .f32 0xFF800000#32) red_S8192 h_S_)))))
    (broadcastInDim S8192 ![0] bc_S1_S8192 (Host.log (broadcastInDim S1 ![] bc_S_S1
      (Host.reduceAdd (Host.exp
        (subf v (broadcastInDim S8192 ![0] bc_S1_S8192 (broadcastInDim S1 ![] bc_S_S1
          (maximumf (constant S_ .f32 0xFF800000#32) (Host.reduce FloatOps.maximumf v (constant S_ .f32 0xFF800000#32) red_S8192 h_S_))))))
        (constant S_ .f32 0x00000000#32) red_S8192 h_S_))))

/-- The matrix's row maxima (from −∞, then once more against −∞, as jax writes it). -/
def matRowMax (M : FVec F S8192x8192 .f32) : FVec F S8192 .f32 :=
  maximumf (broadcastInDim S8192 ![] bc_S_S8192 (constant S_ .f32 0xFF800000#32))
    (Host.reduce FloatOps.maximumf M (constant S_ .f32 0xFF800000#32) red_S8192x8192 h_S_)

/-- The matrix less its row maxima. -/
def matShifted (M : FVec F S8192x8192 .f32) : FVec F S8192x8192 .f32 :=
  subf M (broadcastInDim S8192x8192 ![0, 1] bc_S8192x1_S8192x8192 (broadcastInDim S8192x1 ![0] bc_S8192_S8192x1 (matRowMax M)))

/-- `log_softmax(M, axis = −1)`. -/
def logSoftmaxMat (M : FVec F S8192x8192 .f32) : FVec F S8192x8192 .f32 :=
  subf (matShifted M)
    (broadcastInDim S8192x8192 ![0, 1] bc_S8192x1_S8192x8192 (Host.log (broadcastInDim S8192x1 ![0] bc_S8192_S8192x1
      (Host.reduceAdd (Host.exp (matShifted M)) (constant S_ .f32 0x00000000#32) red_S8192x8192 h_S_))))

/-! ## The two transition terms and the common end -/

/-- The kernel's, over the flat vector `l` of row log-sum-exps: raw matrix entries less the gathered `l[p]`. -/
def transKernelOf (x : IVec S1024x512 32) (M : FVec F S8192x8192 .f32) (l : FVec F S8192 .f32) : FVec F S1024x511 .f32 :=
  subf (Host.gather gPair M (idxPair x)) (Host.gather gRow l (idxRow x))

/-- The kernel's, over its [8192, 1] output `L` (flattened by the host before the gather). -/
def transKernel (x : IVec S1024x512 32) (M : FVec F S8192x8192 .f32) (L : FVec F S8192x1 .f32) : FVec F S1024x511 .f32 :=
  transKernelOf x M (shapeCast S8192 L sc_S8192x1_S8192)

/-- The reference's: entries of the log-softmax matrix. -/
def transRef (x : IVec S1024x512 32) (M : FVec F S8192x8192 .f32) : FVec F S1024x511 .f32 :=
  Host.gather gPair (logSoftmaxMat M) (idxPair x)

/-- The common end over the initial state's log-probabilities `lp`: `lp[x[b, 0]]` plus the row sums of the
    transition terms. -/
def finishOf (x : IVec S1024x512 32) (lp : FVec F S8192 .f32) (T : FVec F S1024x511 .f32) : FVec F S1024 .f32 :=
  addf (Host.gather gFirst lp (idxFirst x))
    (Host.reduceAdd T (constant S_ .f32 0x00000000#32) red_S1024x511 h_S_)

/-- The common end, from the initial-state vector. -/
def finish (x : IVec S1024x512 32) (v : FVec F S8192 .f32) (T : FVec F S1024x511 .f32) : FVec F S1024 .f32 :=
  finishOf x (logSoftmaxVec v) T

end Cert.Tail

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.KernelTail.lean ====
/-
  The idealized kernel program's result as one term of its arguments. After the region the host flattens the
  [8192, 1] column of row log-sum-exps, takes the log-softmax of the initial-state vector, and finishes with the
  gathers, the subtraction, the row sums and the final addition: three stretches of host operations, read here one
  at a time, each against an arbitrary valuation of the buffers, and then composed over what the region leaves.
-/
import proofs.«153432_j81655918231782_2_alg».proof.Proof.Gen.KernelIdeal.Frame
import proofs.«153432_j81655918231782_2_alg».proof.Proof.KernelArray
import proofs.«153432_j81655918231782_2_alg».proof.Proof.HostTail
import proofs.«153432_j81655918231782_2_alg».proof.Proof.LibAfterAppend
import proofs.«153432_j81655918231782_2_alg».proof.Proof.LibTypedRef

noncomputable section

namespace Cert.KernelIdeal.TailRun

open Idealize.ShloMosaic Idealize.ShloMosaic.TcCoe Idealize.SL.Sem Idealize.ShloMosaic.StableHlo
open Idealize.ShloMosaic.Pipeline (Dat)
open Cert.KernelIdeal Cert.KernelIdeal.Gen

/-! ## The three stretches, each over an arbitrary valuation -/

/-- The first stretch flattens the column. -/
theorem flat_v1 (W : Valuation τ sig (Elt Ideal)) :
    after (hostOps1 (F := Ideal)) W (Proc.devRef .tc main_v1)
      = shapeCast Cert.Tail.S8192 (W (Proc.devRef .tc main_v0)) Cert.Tail.sc_S8192x1_S8192 := by
  after_results_simp
  rfl
theorem flat_arg0 (W : Valuation τ sig (Elt Ideal)) :
    after (hostOps1 (F := Ideal)) W (Proc.devRef .tc main_arg0) = W (Proc.devRef .tc main_arg0) := by
  after_results_simp
theorem flat_arg1 (W : Valuation τ sig (Elt Ideal)) :
    after (hostOps1 (F := Ideal)) W (Proc.devRef .tc main_arg1) = W (Proc.devRef .tc main_arg1) := by
  after_results_simp
theorem flat_arg2 (W : Valuation τ sig (Elt Ideal)) :
    after (hostOps1 (F := Ideal)) W (Proc.devRef .tc main_arg2) = W (Proc.devRef .tc main_arg2) := by
  after_results_simp

attribute [local irreducible] Host.reduce Host.reduceAdd in
/-- The second stretch is the log-softmax of the initial-state vector … -/
theorem call_v2 (W : Valuation τ sig (Elt Ideal)) :
    after (hostOps1_1 (F := Ideal)) W (Proc.devRef .tc main_v2)
      = Cert.Tail.logSoftmaxVec (F := Ideal) (W (Proc.devRef .tc main_arg1)) := by
  after_results_simp
  simp only [TRef.ofBuf_toBuf]
  rfl
/-- … and touches nothing the last stretch reads besides. -/
theorem call_arg0 (W : Valuation τ sig (Elt Ideal)) :
    after (hostOps1_1 (F := Ideal)) W (Proc.devRef .tc main_arg0) = W (Proc.devRef .tc main_arg0) := by
  after_results_simp
theorem call_arg2 (W : Valuation τ sig (Elt Ideal)) :
    after (hostOps1_1 (F := Ideal)) W (Proc.devRef .tc main_arg2) = W (Proc.devRef .tc main_arg2) := by
  after_results_simp
theorem call_v1 (W : Valuation τ sig (Elt Ideal)) :
    after (hostOps1_1 (F := Ideal)) W (Proc.devRef .tc main_v1) = W (Proc.devRef .tc main_v1) := by
  after_results_simp

attribute [local irreducible] Host.reduce Host.reduceAdd Host.gather in
/-- The last stretch: the indices, the three gathers, the subtraction, the row sums, the final addition. -/
theorem tail_v37 (W : Valuation τ sig (Elt Ideal)) :
    after (hostOps1_2 (F := Ideal)) W (Proc.devRef .tc main_v37)
      = Cert.Tail.finishOf (F := Ideal) (W (Proc.devRef .tc main_arg0)) (W (Proc.devRef .tc main_v2))
          (Cert.Tail.transKernelOf (F := Ideal) (W (Proc.devRef .tc main_arg0)) (W (Proc.devRef .tc main_arg2))
            (W (Proc.devRef .tc main_v1))) := by
  after_results_simp
  rfl

/-- The whole line after the region, over an arbitrary valuation. -/
theorem line_v37 (W : Valuation τ sig (Elt Ideal)) :
    after (hostOps1 (F := Ideal) ++ (hostOps1_1 ++ hostOps1_2)) W (Proc.devRef .tc main_v37)
      = Cert.Tail.finish (F := Ideal) (W (Proc.devRef .tc main_arg0)) (W (Proc.devRef .tc main_arg1))
          (Cert.Tail.transKernel (F := Ideal) (W (Proc.devRef .tc main_arg0)) (W (Proc.devRef .tc main_arg2))
            (W (Proc.devRef .tc main_v0))) := by
  rw [after_append, after_append, tail_v37, call_v2, call_arg0, call_arg2, call_v1, flat_v1, flat_arg0, flat_arg1,
    flat_arg2]
  rfl

/-! ## Over what the region leaves -/

variable (m : (ℓ : Loc nD τ sig) → Buf (Elt Ideal) ℓ) (ρ : Dev nD → PrngReg)

/-- The buffers as the region leaves them: its two arrays at what the run computes, the rest as launched. -/
abbrev left (c : Dev nD) : Valuation τ sig (Elt Ideal) :=
  Pipeline.withArrays spec0 c (V0 m c) (fun w => (dats m 0 c).arrAt w cfg0.N)

theorem left_v0 (c : Dev nD) :
    left m c (Proc.devRef .tc main_v0) = Arr.lseCol (m ((c.tc : Thread nD τ).loc main_arg2)) :=
  (Pipeline.withArrays_arr spec0 launch0.win.arr_inj c _ _ 1).trans
    ((Arr.final_lse m c).trans (congrArg Arr.lseCol (V_main_arg2 m c)))

theorem left_arg2 (c : Dev nD) :
    left m c (Proc.devRef .tc main_arg2) = m ((c.tc : Thread nD τ).loc main_arg2) :=
  (Pipeline.withArrays_arr spec0 launch0.win.arr_inj c _ _ 0).trans
    (((dats m 0 c).arrAt_in 0 rfl _).trans ((A_eq m c 0).trans (V_main_arg2 m c)))

theorem left_arg0 (c : Dev nD) :
    left m c (Proc.devRef .tc main_arg0) = m ((c.tc : Thread nD τ).loc main_arg0) :=
  (Pipeline.withArrays_of_ne _ c (V0 m c) _ main_arg0 (by exact (by decide : ∀ w, Pipeline.arrRef spec0 w ≠ main_arg0))).trans
    (V_main_arg0 m c)

theorem left_arg1 (c : Dev nD) :
    left m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans
    (V_main_arg1 m c)

/-- THE RESULT BUFFER after the tail: the common end over the kernel's transition terms, the row log-sum-exps the
    region left standing where the kernel's output is read. -/
theorem tail_value (c : Dev nD) :
    Pipeline.afterTail₀ cfgs (dats m) 0 (V0 m) [hostOps1, hostOps1_1, hostOps1_2] c main_v37
      = Cert.Tail.finish (F := Ideal) (m ((c.tc : Thread nD τ).loc main_arg0)) (m ((c.tc : Thread nD τ).loc main_arg1))
          (Cert.Tail.transKernel (F := Ideal) (m ((c.tc : Thread nD τ).loc main_arg0)) (m ((c.tc : Thread nD τ).loc main_arg2))
            (Arr.lseCol (m ((c.tc : Thread nD τ).loc main_arg2)))) := by
  unfold Pipeline.afterTail₀
  show after (hostOps1 ++ (hostOps1_1 ++ hostOps1_2)) (left m c) (Proc.devRef .tc main_v37) = _
  rw [line_v37, left_v0, left_arg0, left_arg1, left_arg2]

/-- THE RUN of the idealized kernel program: it ends with the result at that term and the arguments unchanged. -/
theorem run : θ_run defs (onTc (τ := τ) (main (F := Ideal))) ⟨m, fun _ => 0, ρ⟩ fun r => ∀ c : Dev nD,
      r.2.mem ((c.tc : Thread nD τ).loc main_v37)
        = Cert.Tail.finish (F := Ideal) (m ((c.tc : Thread nD τ).loc main_arg0)) (m ((c.tc : Thread nD τ).loc main_arg1))
            (Cert.Tail.transKernel (F := Ideal) (m ((c.tc : Thread nD τ).loc main_arg0)) (m ((c.tc : Thread nD τ).loc main_arg2))
              (Arr.lseCol (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v37 (Pipeline.mem_restRefs_of main_v37 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.KernelIdeal.TailRun

end
-- ==== Proof.RefRun.lean ====
/-
  The idealized reference program run as a straight line. Its @main calls two outlined functions (the log-softmax
  of the initial-state vector, fourteen operations; the log-softmax of the matrix along its rows, fifteen) and then
  runs thirty-four operations of its own: sixty-three host operations in order, the callees' standing at their
  calls over the calls' own buffers. Every weakly fair execution terminates with each buffer at the fold of the
  operations' results over the launch contents.
-/
import proofs.«153432_j81655918231782_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The log-softmax of the initial-state vector, at its call. -/
abbrev opsVec : List (HloOp τ sig (Elt F)) :=
  [ TRef.nullary main_call0.cst (constant S_ .f32 0xFF800000#32),
    TRef.binary (.of main_arg1 : TRef sig ⟨S8192, .f32⟩) main_call0.cst main_call0.v0 (fun x v => Host.reduce FloatOps.maximumf x v reducesTo_S8192_S_d0 h_S_),
    TRef.nullary main_call0.cst_0 (constant S_ .f32 0xFF800000#32),
    TRef.binary main_call0.cst_0 main_call0.v0 main_call0.v1 maximumf,
    TRef.unary main_call0.v1 main_call0.v2 (broadcastInDim S1 ![] bcast_S_S1),
    TRef.unary main_call0.v2 main_call0.v3 (broadcastInDim S8192 ![0] bcast_S1_S8192_0),
    TRef.binary (.of main_arg1 : TRef sig ⟨S8192, .f32⟩) main_call0.v3 main_call0.v4 subf,
    TRef.unary main_call0.v4 main_call0.v5 Host.exp,
    TRef.nullary main_call0.cst_1 (constant S_ .f32 0x00000000#32),
    TRef.binary main_call0.v5 main_call0.cst_1 main_call0.v6 (fun x v => Host.reduceAdd x v reducesTo_S8192_S_d0 h_S_),
    TRef.unary main_call0.v6 main_call0.v7 (broadcastInDim S1 ![] bcast_S_S1),
    TRef.unary main_call0.v7 main_call0.v8 Host.log,
    TRef.unary main_call0.v8 main_call0.v9 (broadcastInDim S8192 ![0] bcast_S1_S8192_0),
    TRef.binary main_call0.v4 main_call0.v9 main_call0.v10 subf ]

/-- The log-softmax of the matrix along its rows, at its call. -/
abbrev opsMat : List (HloOp τ sig (Elt F)) :=
  [ TRef.nullary main_call1.cst (constant S_ .f32 0xFF800000#32),
    TRef.binary (.of main_arg2 : TRef sig ⟨S8192x8192, .f32⟩) main_call1.cst main_call1.v0 (fun x v => Host.reduce FloatOps.maximumf x v reducesTo_S8192x8192_S8192_d1 h_S_),
    TRef.nullary main_call1.cst_0 (constant S_ .f32 0xFF800000#32),
    TRef.unary main_call1.cst_0 main_call1.v1 (broadcastInDim S8192 ![] bcast_S_S8192),
    TRef.binary main_call1.v1 main_call1.v0 main_call1.v2 maximumf,
    TRef.unary main_call1.v2 main_call1.v3 (broadcastInDim S8192x1 ![0] bcast_S8192_S8192x1_0),
    TRef.unary main_call1.v3 main_call1.v4 (broadcastInDim S8192x8192 ![0, 1] bcast_S8192x1_S8192x8192_0_1),
    TRef.binary (.of main_arg2 : TRef sig ⟨S8192x8192, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S8192x8192_S8192_d1 h_S_),
    TRef.unary main_call1.v7 main_call1.v8 (broadcastInDim S8192x1 ![0] bcast_S8192_S8192x1_0),
    TRef.unary main_call1.v8 main_call1.v9 Host.log,
    TRef.unary main_call1.v9 main_call1.v10 (broadcastInDim S8192x8192 ![0, 1] bcast_S8192x1_S8192x8192_0_1),
    TRef.binary main_call1.v5 main_call1.v10 main_call1.v11 subf ]

/-- @main's own lines: the indices, the two gathers, the row sums, the final addition. -/
abbrev opsEnd : List (HloOp τ sig (Elt F)) :=
  [ unary main_arg0 main_v2 ((extractStridedSlice S1024x1 ![0, 0] · slices_S1024x512_S1024x1_0_0) : (⟨S1024x512, .i32⟩ : BufTy).Contents (Elt F) → (⟨S1024x1, .i32⟩ : BufTy).Contents (Elt F)),
    reshape main_v2 main_v3 rfl shapeCasts_S1024x1_S1024,
    nullary main_c (constantI S_ 32 0#32),
    unary main_c main_v4 (broadcastInDim S1024 ![] bcast_S_S1024 : (⟨S_, .i32⟩ : BufTy).Contents (Elt F) → (⟨S1024, .i32⟩ : BufTy).Contents (Elt F)),
    binary main_v3 main_v4 main_v5 (cmpi .slt : (⟨S1024, .i32⟩ : BufTy).Contents (Elt F) → (⟨S1024, .i32⟩ : BufTy).Contents (Elt F) → (⟨S1024, .i1⟩ : BufTy).Contents (Elt F)),
    nullary main_c_0 (constantI S_ 32 8192#32),
    unary main_c_0 main_v6 (broadcastInDim S1024 ![] bcast_S_S1024 : (⟨S_, .i32⟩ : BufTy).Contents (Elt F) → (⟨S1024, .i32⟩ : BufTy).Contents (Elt F)),
    binary main_v3 main_v6 main_v7 (addi : (⟨S1024, .i32⟩ : BufTy).Contents (Elt F) → (⟨S1024, .i32⟩ : BufTy).Contents (Elt F) → (⟨S1024, .i32⟩ : BufTy).Contents (Elt F)),
    ternary main_v5 main_v7 main_v3 main_v8 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v8 main_v9 (broadcastInDim S1024x1 ![0] bcast_S1024_S1024x1_0 : (⟨S1024, .i32⟩ : BufTy).Contents (Elt F) → (⟨S1024x1, .i32⟩ : BufTy).Contents (Elt F)),
    binary main_v0 main_v9 main_v10 ((fun x i => Host.gather gather_S8192_S1024x1_S1024_n_0_n_n_0_1_1 x i) : (⟨S8192, .f32⟩ : BufTy).Contents (Elt F) → (⟨S1024x1, .i32⟩ : BufTy).Contents (Elt F) → (⟨S1024, .f32⟩ : BufTy).Contents (Elt F)),
    unary main_arg0 main_v11 ((extractStridedSlice S1024x511 ![0, 0] · slices_S1024x512_S1024x511_0_0) : (⟨S1024x512, .i32⟩ : BufTy).Contents (Elt F) → (⟨S1024x511, .i32⟩ : BufTy).Contents (Elt F)),
    unary main_arg0 main_v12 ((extractStridedSlice S1024x511 ![0, 1] · slices_S1024x512_S1024x511_0_1) : (⟨S1024x512, .i32⟩ : BufTy).Contents (Elt F) → (⟨S1024x511, .i32⟩ : BufTy).Contents (Elt F)),
    nullary main_c_1 (constantI S_ 32 0#32),
    unary main_c_1 main_v13 (broadcastInDim S1024x511 ![] bcast_S_S1024x511 : (⟨S_, .i32⟩ : BufTy).Contents (Elt F) → (⟨S1024x511, .i32⟩ : BufTy).Contents (Elt F)),
    binary main_v11 main_v13 main_v14 (cmpi .slt : (⟨S1024x511, .i32⟩ : BufTy).Contents (Elt F) → (⟨S1024x511, .i32⟩ : BufTy).Contents (Elt F) → (⟨S1024x511, .i1⟩ : BufTy).Contents (Elt F)),
    nullary main_c_2 (constantI S_ 32 8192#32),
    unary main_c_2 main_v15 (broadcastInDim S1024x511 ![] bcast_S_S1024x511 : (⟨S_, .i32⟩ : BufTy).Contents (Elt F) → (⟨S1024x511, .i32⟩ : BufTy).Contents (Elt F)),
    binary main_v11 main_v15 main_v16 (addi : (⟨S1024x511, .i32⟩ : BufTy).Contents (Elt F) → (⟨S1024x511, .i32⟩ : BufTy).Contents (Elt F) → (⟨S1024x511, .i32⟩ : BufTy).Contents (Elt F)),
    ternary main_v14 main_v16 main_v11 main_v17 (select : (⟨S1024x511, .i1⟩ : BufTy).Contents (Elt F) → (⟨S1024x511, .i32⟩ : BufTy).Contents (Elt F) → (⟨S1024x511, .i32⟩ : BufTy).Contents (Elt F) → (⟨S1024x511, .i32⟩ : BufTy).Contents (Elt F)),
    nullary main_c_3 (constantI S_ 32 0#32),
    unary main_c_3 main_v18 (broadcastInDim S1024x511 ![] bcast_S_S1024x511 : (⟨S_, .i32⟩ : BufTy).Contents (Elt F) → (⟨S1024x511, .i32⟩ : BufTy).Contents (Elt F)),
    binary main_v12 main_v18 main_v19 (cmpi .slt : (⟨S1024x511, .i32⟩ : BufTy).Contents (Elt F) → (⟨S1024x511, .i32⟩ : BufTy).Contents (Elt F) → (⟨S1024x511, .i1⟩ : BufTy).Contents (Elt F)),
    nullary main_c_4 (constantI S_ 32 8192#32),
    unary main_c_4 main_v20 (broadcastInDim S1024x511 ![] bcast_S_S1024x511 : (⟨S_, .i32⟩ : BufTy).Contents (Elt F) → (⟨S1024x511, .i32⟩ : BufTy).Contents (Elt F)),
    binary main_v12 main_v20 main_v21 (addi : (⟨S1024x511, .i32⟩ : BufTy).Contents (Elt F) → (⟨S1024x511, .i32⟩ : BufTy).Contents (Elt F) → (⟨S1024x511, .i32⟩ : BufTy).Contents (Elt F)),
    ternary main_v19 main_v21 main_v12 main_v22 (select : (⟨S1024x511, .i1⟩ : BufTy).Contents (Elt F) → (⟨S1024x511, .i32⟩ : BufTy).Contents (Elt F) → (⟨S1024x511, .i32⟩ : BufTy).Contents (Elt F) → (⟨S1024x511, .i32⟩ : BufTy).Contents (Elt F)),
    unary main_v17 main_v23 (broadcastInDim S1024x511x1 ![0, 1] bcast_S1024x511_S1024x511x1_0_1 : (⟨S1024x511, .i32⟩ : BufTy).Contents (Elt F) → (⟨S1024x511x1, .i32⟩ : BufTy).Contents (Elt F)),
    unary main_v22 main_v24 (broadcastInDim S1024x511x1 ![0, 1] bcast_S1024x511_S1024x511x1_0_1 : (⟨S1024x511, .i32⟩ : BufTy).Contents (Elt F) → (⟨S1024x511x1, .i32⟩ : BufTy).Contents (Elt F)),
    binary main_v23 main_v24 main_v25 ((fun a b => concatenate S1024x511x2 2 [⟨S1024x511x1, a⟩, ⟨S1024x511x1, b⟩] concatenates_S1024x511x1_S1024x511x1_S1024x511x2_d2) : (⟨S1024x511x1, .i32⟩ : BufTy).Contents (Elt F) → (⟨S1024x511x1, .i32⟩ : BufTy).Contents (Elt F) → (⟨S1024x511x2, .i32⟩ : BufTy).Contents (Elt F)),
    binary main_v1 main_v25 main_v26 ((fun x i => Host.gather gather_S8192x8192_S1024x511x2_S1024x511_n_01_n_n_01_2_11 x i) : (⟨S8192x8192, .f32⟩ : BufTy).Contents (Elt F) → (⟨S1024x511x2, .i32⟩ : BufTy).Contents (Elt F) → (⟨S1024x511, .f32⟩ : BufTy).Contents (Elt F)),
    nullary main_cst (constant S_ .f32 0x00000000#32),
    binary main_v26 main_cst main_v27 ((fun x v => Host.reduceAdd x v reducesTo_S1024x511_S1024_d1 h_S_) : (⟨S1024x511, .f32⟩ : BufTy).Contents (Elt F) → (⟨S_, .f32⟩ : BufTy).Contents (Elt F) → (⟨S1024, .f32⟩ : BufTy).Contents (Elt F)),
    binary main_v10 main_v27 main_v28 (addf : (⟨S1024, .f32⟩ : BufTy).Contents (Elt F) → (⟨S1024, .f32⟩ : BufTy).Contents (Elt F) → (⟨S1024, .f32⟩ : BufTy).Contents (Elt F)) ]

/-- All sixty-three, in order. -/
abbrev ops : List (HloOp τ sig (Elt F)) :=
  [ TRef.nullary main_call0.cst (constant S_ .f32 0xFF800000#32),
    TRef.binary (.of main_arg1 : TRef sig ⟨S8192, .f32⟩) main_call0.cst main_call0.v0 (fun x v => Host.reduce FloatOps.maximumf x v reducesTo_S8192_S_d0 h_S_),
    TRef.nullary main_call0.cst_0 (constant S_ .f32 0xFF800000#32),
    TRef.binary main_call0.cst_0 main_call0.v0 main_call0.v1 maximumf,
    TRef.unary main_call0.v1 main_call0.v2 (broadcastInDim S1 ![] bcast_S_S1),
    TRef.unary main_call0.v2 main_call0.v3 (broadcastInDim S8192 ![0] bcast_S1_S8192_0),
    TRef.binary (.of main_arg1 : TRef sig ⟨S8192, .f32⟩) main_call0.v3 main_call0.v4 subf,
    TRef.unary main_call0.v4 main_call0.v5 Host.exp,
    TRef.nullary main_call0.cst_1 (constant S_ .f32 0x00000000#32),
    TRef.binary main_call0.v5 main_call0.cst_1 main_call0.v6 (fun x v => Host.reduceAdd x v reducesTo_S8192_S_d0 h_S_),
    TRef.unary main_call0.v6 main_call0.v7 (broadcastInDim S1 ![] bcast_S_S1),
    TRef.unary main_call0.v7 main_call0.v8 Host.log,
    TRef.unary main_call0.v8 main_call0.v9 (broadcastInDim S8192 ![0] bcast_S1_S8192_0),
    TRef.binary main_call0.v4 main_call0.v9 main_call0.v10 subf,
    TRef.nullary main_call1.cst (constant S_ .f32 0xFF800000#32),
    TRef.binary (.of main_arg2 : TRef sig ⟨S8192x8192, .f32⟩) main_call1.cst main_call1.v0 (fun x v => Host.reduce FloatOps.maximumf x v reducesTo_S8192x8192_S8192_d1 h_S_),
    TRef.nullary main_call1.cst_0 (constant S_ .f32 0xFF800000#32),
    TRef.unary main_call1.cst_0 main_call1.v1 (broadcastInDim S8192 ![] bcast_S_S8192),
    TRef.binary main_call1.v1 main_call1.v0 main_call1.v2 maximumf,
    TRef.unary main_call1.v2 main_call1.v3 (broadcastInDim S8192x1 ![0] bcast_S8192_S8192x1_0),
    TRef.unary main_call1.v3 main_call1.v4 (broadcastInDim S8192x8192 ![0, 1] bcast_S8192x1_S8192x8192_0_1),
    TRef.binary (.of main_arg2 : TRef sig ⟨S8192x8192, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S8192x8192_S8192_d1 h_S_),
    TRef.unary main_call1.v7 main_call1.v8 (broadcastInDim S8192x1 ![0] bcast_S8192_S8192x1_0),
    TRef.unary main_call1.v8 main_call1.v9 Host.log,
    TRef.unary main_call1.v9 main_call1.v10 (broadcastInDim S8192x8192 ![0, 1] bcast_S8192x1_S8192x8192_0_1),
    TRef.binary main_call1.v5 main_call1.v10 main_call1.v11 subf,
    unary main_arg0 main_v2 ((extractStridedSlice S1024x1 ![0, 0] · slices_S1024x512_S1024x1_0_0) : (⟨S1024x512, .i32⟩ : BufTy).Contents (Elt F) → (⟨S1024x1, .i32⟩ : BufTy).Contents (Elt F)),
    reshape main_v2 main_v3 rfl shapeCasts_S1024x1_S1024,
    nullary main_c (constantI S_ 32 0#32),
    unary main_c main_v4 (broadcastInDim S1024 ![] bcast_S_S1024 : (⟨S_, .i32⟩ : BufTy).Contents (Elt F) → (⟨S1024, .i32⟩ : BufTy).Contents (Elt F)),
    binary main_v3 main_v4 main_v5 (cmpi .slt : (⟨S1024, .i32⟩ : BufTy).Contents (Elt F) → (⟨S1024, .i32⟩ : BufTy).Contents (Elt F) → (⟨S1024, .i1⟩ : BufTy).Contents (Elt F)),
    nullary main_c_0 (constantI S_ 32 8192#32),
    unary main_c_0 main_v6 (broadcastInDim S1024 ![] bcast_S_S1024 : (⟨S_, .i32⟩ : BufTy).Contents (Elt F) → (⟨S1024, .i32⟩ : BufTy).Contents (Elt F)),
    binary main_v3 main_v6 main_v7 (addi : (⟨S1024, .i32⟩ : BufTy).Contents (Elt F) → (⟨S1024, .i32⟩ : BufTy).Contents (Elt F) → (⟨S1024, .i32⟩ : BufTy).Contents (Elt F)),
    ternary main_v5 main_v7 main_v3 main_v8 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v8 main_v9 (broadcastInDim S1024x1 ![0] bcast_S1024_S1024x1_0 : (⟨S1024, .i32⟩ : BufTy).Contents (Elt F) → (⟨S1024x1, .i32⟩ : BufTy).Contents (Elt F)),
    binary main_v0 main_v9 main_v10 ((fun x i => Host.gather gather_S8192_S1024x1_S1024_n_0_n_n_0_1_1 x i) : (⟨S8192, .f32⟩ : BufTy).Contents (Elt F) → (⟨S1024x1, .i32⟩ : BufTy).Contents (Elt F) → (⟨S1024, .f32⟩ : BufTy).Contents (Elt F)),
    unary main_arg0 main_v11 ((extractStridedSlice S1024x511 ![0, 0] · slices_S1024x512_S1024x511_0_0) : (⟨S1024x512, .i32⟩ : BufTy).Contents (Elt F) → (⟨S1024x511, .i32⟩ : BufTy).Contents (Elt F)),
    unary main_arg0 main_v12 ((extractStridedSlice S1024x511 ![0, 1] · slices_S1024x512_S1024x511_0_1) : (⟨S1024x512, .i32⟩ : BufTy).Contents (Elt F) → (⟨S1024x511, .i32⟩ : BufTy).Contents (Elt F)),
    nullary main_c_1 (constantI S_ 32 0#32),
    unary main_c_1 main_v13 (broadcastInDim S1024x511 ![] bcast_S_S1024x511 : (⟨S_, .i32⟩ : BufTy).Contents (Elt F) → (⟨S1024x511, .i32⟩ : BufTy).Contents (Elt F)),
    binary main_v11 main_v13 main_v14 (cmpi .slt : (⟨S1024x511, .i32⟩ : BufTy).Contents (Elt F) → (⟨S1024x511, .i32⟩ : BufTy).Contents (Elt F) → (⟨S1024x511, .i1⟩ : BufTy).Contents (Elt F)),
    nullary main_c_2 (constantI S_ 32 8192#32),
    unary main_c_2 main_v15 (broadcastInDim S1024x511 ![] bcast_S_S1024x511 : (⟨S_, .i32⟩ : BufTy).Contents (Elt F) → (⟨S1024x511, .i32⟩ : BufTy).Contents (Elt F)),
    binary main_v11 main_v15 main_v16 (addi : (⟨S1024x511, .i32⟩ : BufTy).Contents (Elt F) → (⟨S1024x511, .i32⟩ : BufTy).Contents (Elt F) → (⟨S1024x511, .i32⟩ : BufTy).Contents (Elt F)),
    ternary main_v14 main_v16 main_v11 main_v17 (select : (⟨S1024x511, .i1⟩ : BufTy).Contents (Elt F) → (⟨S1024x511, .i32⟩ : BufTy).Contents (Elt F) → (⟨S1024x511, .i32⟩ : BufTy).Contents (Elt F) → (⟨S1024x511, .i32⟩ : BufTy).Contents (Elt F)),
    nullary main_c_3 (constantI S_ 32 0#32),
    unary main_c_3 main_v18 (broadcastInDim S1024x511 ![] bcast_S_S1024x511 : (⟨S_, .i32⟩ : BufTy).Contents (Elt F) → (⟨S1024x511, .i32⟩ : BufTy).Contents (Elt F)),
    binary main_v12 main_v18 main_v19 (cmpi .slt : (⟨S1024x511, .i32⟩ : BufTy).Contents (Elt F) → (⟨S1024x511, .i32⟩ : BufTy).Contents (Elt F) → (⟨S1024x511, .i1⟩ : BufTy).Contents (Elt F)),
    nullary main_c_4 (constantI S_ 32 8192#32),
    unary main_c_4 main_v20 (broadcastInDim S1024x511 ![] bcast_S_S1024x511 : (⟨S_, .i32⟩ : BufTy).Contents (Elt F) → (⟨S1024x511, .i32⟩ : BufTy).Contents (Elt F)),
    binary main_v12 main_v20 main_v21 (addi : (⟨S1024x511, .i32⟩ : BufTy).Contents (Elt F) → (⟨S1024x511, .i32⟩ : BufTy).Contents (Elt F) → (⟨S1024x511, .i32⟩ : BufTy).Contents (Elt F)),
    ternary main_v19 main_v21 main_v12 main_v22 (select : (⟨S1024x511, .i1⟩ : BufTy).Contents (Elt F) → (⟨S1024x511, .i32⟩ : BufTy).Contents (Elt F) → (⟨S1024x511, .i32⟩ : BufTy).Contents (Elt F) → (⟨S1024x511, .i32⟩ : BufTy).Contents (Elt F)),
    unary main_v17 main_v23 (broadcastInDim S1024x511x1 ![0, 1] bcast_S1024x511_S1024x511x1_0_1 : (⟨S1024x511, .i32⟩ : BufTy).Contents (Elt F) → (⟨S1024x511x1, .i32⟩ : BufTy).Contents (Elt F)),
    unary main_v22 main_v24 (broadcastInDim S1024x511x1 ![0, 1] bcast_S1024x511_S1024x511x1_0_1 : (⟨S1024x511, .i32⟩ : BufTy).Contents (Elt F) → (⟨S1024x511x1, .i32⟩ : BufTy).Contents (Elt F)),
    binary main_v23 main_v24 main_v25 ((fun a b => concatenate S1024x511x2 2 [⟨S1024x511x1, a⟩, ⟨S1024x511x1, b⟩] concatenates_S1024x511x1_S1024x511x1_S1024x511x2_d2) : (⟨S1024x511x1, .i32⟩ : BufTy).Contents (Elt F) → (⟨S1024x511x1, .i32⟩ : BufTy).Contents (Elt F) → (⟨S1024x511x2, .i32⟩ : BufTy).Contents (Elt F)),
    binary main_v1 main_v25 main_v26 ((fun x i => Host.gather gather_S8192x8192_S1024x511x2_S1024x511_n_01_n_n_01_2_11 x i) : (⟨S8192x8192, .f32⟩ : BufTy).Contents (Elt F) → (⟨S1024x511x2, .i32⟩ : BufTy).Contents (Elt F) → (⟨S1024x511, .f32⟩ : BufTy).Contents (Elt F)),
    nullary main_cst (constant S_ .f32 0x00000000#32),
    binary main_v26 main_cst main_v27 ((fun x v => Host.reduceAdd x v reducesTo_S1024x511_S1024_d1 h_S_) : (⟨S1024x511, .f32⟩ : BufTy).Contents (Elt F) → (⟨S_, .f32⟩ : BufTy).Contents (Elt F) → (⟨S1024, .f32⟩ : BufTy).Contents (Elt F)),
    binary main_v10 main_v27 main_v28 (addf : (⟨S1024, .f32⟩ : BufTy).Contents (Elt F) → (⟨S1024, .f32⟩ : BufTy).Contents (Elt F) → (⟨S1024, .f32⟩ : BufTy).Contents (Elt F)) ]

/-- The line is the three stretches one after the other. -/
theorem ops_split : (ops : List (HloOp τ sig (Elt F))) = opsVec ++ (opsMat ++ opsEnd) := rfl

set_option maxRecDepth 16384 in
set_option maxHeartbeats 4000000 in
/-- @main is that straight line: the two functions' bodies unfolded at their calls, the sequencing reassociated. -/
theorem main_eq (c : Dev nD) : main (F := F) c = seq ops := by
  simp only [main, fn_log_softmax.body, fn_log_softmax_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore references only. -/
theorem ops_sub : (ops : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., binary_bufs_sub ..⟩

/-- THE RUN: every weakly fair execution of @main terminates, each buffer at the fold of the operations' results over
    the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefValue.lean ====
/-
  The idealized reference program's result as one term of its arguments: its straight line read in three stretches —
  the log-softmax of the initial-state vector, the log-softmax of the matrix, then the indices, the two gathers, the
  row sums and the final addition — each against an arbitrary valuation of the buffers, and composed.
-/
import proofs.«153432_j81655918231782_2_alg».proof.Proof.RefRun
import proofs.«153432_j81655918231782_2_alg».proof.Proof.HostTail
import proofs.«153432_j81655918231782_2_alg».proof.Proof.LibAfterAppend
import proofs.«153432_j81655918231782_2_alg».proof.Proof.LibTypedRef
import Idealize.ShloMosaic.PureOps.Ideal

noncomputable section

namespace Cert.ReferenceIdeal.LineValue

open Cert.ReferenceIdeal Cert.ReferenceIdeal.Gen Cert.ReferenceIdeal.Line
open Idealize.ShloMosaic Idealize.ShloMosaic.TcCoe Idealize.SL.Sem Idealize.ShloMosaic.StableHlo

/-! ## The three stretches, each over an arbitrary valuation -/

attribute [local irreducible] Host.reduce Host.reduceAdd in
/-- The first stretch is the log-softmax of the initial-state vector … -/
theorem vec_v0 (W : Valuation τ sig (Elt Ideal)) :
    after (opsVec (F := Ideal)) W (Proc.devRef .tc main_v0)
      = Cert.Tail.logSoftmaxVec (F := Ideal) (W (Proc.devRef .tc main_arg1)) := by
  after_results_simp
  simp only [TRef.ofBuf_toBuf]
  rfl
/-- … and leaves the other two arguments alone. -/
theorem vec_arg0 (W : Valuation τ sig (Elt Ideal)) :
    after (opsVec (F := Ideal)) W (Proc.devRef .tc main_arg0) = W (Proc.devRef .tc main_arg0) := by
  after_results_simp
theorem vec_arg2 (W : Valuation τ sig (Elt Ideal)) :
    after (opsVec (F := Ideal)) W (Proc.devRef .tc main_arg2) = W (Proc.devRef .tc main_arg2) := by
  after_results_simp

attribute [local irreducible] Host.reduce Host.reduceAdd in
/-- The second stretch is the log-softmax of the matrix along its rows … -/
theorem mat_v1 (W : Valuation τ sig (Elt Ideal)) :
    after (opsMat (F := Ideal)) W (Proc.devRef .tc main_v1)
      = Cert.Tail.logSoftmaxMat (F := Ideal) (W (Proc.devRef .tc main_arg2)) := by
  after_results_simp
  simp only [TRef.ofBuf_toBuf]
  rfl
/-- … and leaves the index argument and the first stretch's result alone. -/
theorem mat_arg0 (W : Valuation τ sig (Elt Ideal)) :
    after (opsMat (F := Ideal)) W (Proc.devRef .tc main_arg0) = W (Proc.devRef .tc main_arg0) := by
  after_results_simp
theorem mat_v0 (W : Valuation τ sig (Elt Ideal)) :
    after (opsMat (F := Ideal)) W (Proc.devRef .tc main_v0) = W (Proc.devRef .tc main_v0) := by
  after_results_simp

attribute [local irreducible] Host.reduce Host.reduceAdd Host.gather in
/-- The last stretch: the indices, the two gathers, the row sums, the final addition. -/
theorem end_v28 (W : Valuation τ sig (Elt Ideal)) :
    after (opsEnd (F := Ideal)) W (Proc.devRef .tc main_v28)
      = Cert.Tail.finishOf (F := Ideal) (W (Proc.devRef .tc main_arg0)) (W (Proc.devRef .tc main_v0))
          (Host.gather Cert.Tail.gPair (W (Proc.devRef .tc main_v1)) (Cert.Tail.idxPair (W (Proc.devRef .tc main_arg0)))) := by
  after_results_simp
  rfl

/-- The whole line, over an arbitrary valuation. -/
theorem line_v28 (W : Valuation τ sig (Elt Ideal)) :
    after (ops (F := Ideal)) W (Proc.devRef .tc main_v28)
      = Cert.Tail.finish (F := Ideal) (W (Proc.devRef .tc main_arg0)) (W (Proc.devRef .tc main_arg1))
          (Cert.Tail.transRef (F := Ideal) (W (Proc.devRef .tc main_arg0)) (W (Proc.devRef .tc main_arg2))) := by
  rw [ops_split, after_append, after_append, end_v28, mat_v1, mat_arg0, mat_v0, vec_v0, vec_arg0, vec_arg2]
  rfl

/-- No operation of the line writes an argument. -/
theorem line_arg0 (W : Valuation τ sig (Elt Ideal)) :
    after (ops (F := Ideal)) W (Proc.devRef .tc main_arg0) = W (Proc.devRef .tc main_arg0) := by
  after_results_simp
theorem line_arg1 (W : Valuation τ sig (Elt Ideal)) :
    after (ops (F := Ideal)) W (Proc.devRef .tc main_arg1) = W (Proc.devRef .tc main_arg1) := by
  after_results_simp
theorem line_arg2 (W : Valuation τ sig (Elt Ideal)) :
    after (ops (F := Ideal)) W (Proc.devRef .tc main_arg2) = W (Proc.devRef .tc main_arg2) := by
  after_results_simp

/-! ## The run -/

/-- THE RUN of the idealized reference: it ends with the result at the common end over the reference's transition
    terms, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = Cert.Tail.finish (F := Ideal) (m ((c.tc : Thread nD τ).loc main_arg0)) (m ((c.tc : Thread nD τ).loc main_arg1))
            (Cert.Tail.transRef (F := Ideal) (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v28).trans (line_v28 _), (h c main_arg0).trans (line_arg0 _), (h c main_arg1).trans (line_arg1 _),
      (h c main_arg2).trans (line_arg2 _)⟩)
    (run_line (F := Ideal) m ρ)

end Cert.ReferenceIdeal.LineValue

end
-- ==== Proof.RefMatrix.lean ====
/-
  The reference's log-softmax matrix, read at one entry. jax lowers `log_softmax(M, axis = −1)` as: the row maxima
  (a host reduce from −∞, then a maximum against −∞ once more), the matrix less its row maxima, the exponentials, the
  row sums from zero, their logarithms, and a last subtraction. At `(r, c)` that is
  `(M[r, c] − max_r) − log ∑_k exp (M[r, k] − max_r)`, in the notation of the row law.
-/
import proofs.«153432_j81655918231782_2_alg».proof.Proof.HostTail
import proofs.«153432_j81655918231782_2_alg».proof.Proof.LseLaw
import Idealize.ShloMosaic.Lib.ValueIdx
import Idealize.ShloMosaic.Lib.Pipeline.Value
import Idealize.ShloMosaic.PureOps.Ideal.Laws

noncomputable section

open scoped BigOperators

namespace Cert.Tail.MatRead

open Idealize.ShloMosaic Idealize.ShloMosaic.ValueIdx Cert.Tail Cert.LseLaw

/-- Row `r` of the matrix, as a function of the column. -/
abbrev matRow (M : FVec Ideal S8192x8192 .f32) (r : Fin 8192) : Fin 8192 → EReal := fun k => M (ix2 r k)

theorem redCols : S8192x8192.Reduces [1] S8192 := by decide

/-- Reducing over the columns: the reduced index `r` with column `k` put back is `(r, k)`. -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- A flat [8192] vector kept as a column and spread over the columns reads, at `(r, c)`, its entry `r`. -/
theorem spread_apply (v : FVec Ideal S8192 .f32) (r c : Fin 8192) :
    broadcastInDim S8192x8192 ![0, 1] bc_S8192x1_S8192x8192 (broadcastInDim S8192x1 ![0] bc_S8192_S8192x1 v) (ix2 r c)
      = v (ix1 r) :=
  (broadcastInDim_apply _ bc_S8192x1_S8192x8192 _ (ix2 r c) (ix2 r (0 : Fin 1)) (fun a => match a with
    | ⟨0, _⟩ => by show r.val = if (8192 : Nat) = 1 then 0 else r.val; rw [if_neg (by decide)]
    | ⟨1, _⟩ => by show 0 = if (1 : Nat) = 1 then 0 else c.val; rw [if_pos rfl])).trans
  (broadcastInDim_apply _ bc_S8192_S8192x1 _ (ix2 r (0 : Fin 1)) (ix1 r) (fun a => match a with
    | ⟨0, _⟩ => by show r.val = if (8192 : Nat) = 1 then 0 else r.val; rw [if_neg (by decide)]))

/-- The row maxima, at `r`: the row's maximum. -/
theorem matRowMax_apply (M : FVec Ideal S8192x8192 .f32) (r : Fin 8192) :
    matRowMax (F := Ideal) M (ix1 r) = rowMax (matRow M r) := by
  unfold matRowMax
  have e1 : broadcastInDim S8192 ![] bc_S_S8192 (constant (F := Ideal) S_ .f32 0xFF800000#32) (ix1 r) = negInf :=
    broadcastInDim_apply _ bc_S_S8192 _ (ix1 r) ix0 (fun a => a.elim0)
  have e2 : Host.reduce FloatOps.maximumf M (constant (F := Ideal) S_ .f32 0xFF800000#32) red_S8192x8192 h_S_ (ix1 r)
      = rowMax (matRow M r) := by
    refine (Host.reduce_eq_fold_single FloatOps.maximumf M _ red_S8192x8192 redCols h_S_ (ix1 r)).trans ?_
    unfold rowMax
    have hf : (M ∘ redCols.lift (ix1 r)) = fun k : Fin 8192 => M (ix2 r k) :=
      funext fun k => congrArg M (lift_row redCols r k)
    exact congrArg (fun f => Finset.fold max (Ideal.ofBits .f32 0xFF800000#32) f (Finset.univ : Finset (Fin 8192))) hf
  exact (maximumf_apply _ _ _).trans ((congrArg₂ (fun a b : EReal => max a b) e1 e2).trans (max_negInf _))

/-- The matrix less its row maxima, at `(r, c)`. -/
theorem matShifted_apply (M : FVec Ideal S8192x8192 .f32) (r c : Fin 8192) :
    matShifted (F := Ideal) M (ix2 r c) = M (ix2 r c) - rowMax (matRow M r) := by
  unfold matShifted
  exact (subf_apply _ _ _).trans (congrArg (fun t : EReal => M (ix2 r c) - t)
    ((spread_apply _ r c).trans (matRowMax_apply M r)))

/-- The row sums of the exponentials, at `r`. -/
theorem matSum_apply (M : FVec Ideal S8192x8192 .f32) (r : Fin 8192) :
    Host.reduceAdd (Host.exp (matShifted (F := Ideal) M)) (constant (F := Ideal) S_ .f32 0x00000000#32) red_S8192x8192 h_S_ (ix1 r)
      = rowSumExp (matRow M r) := by
  refine (Ideal.hostReduceAdd_single red_S8192x8192 redCols (Host.exp (matShifted (F := Ideal) M)) _ (ix1 r)).trans ?_
  show Ideal.ofBits .f32 0x00000000#32 + ∑ k : Fin 8192, Ideal.exp (matShifted (F := Ideal) M (redCols.lift (ix1 r) k))
    = ∑ k : Fin 8192, Ideal.exp (M (ix2 r k) - rowMax (matRow M r))
  rw [Ideal.ofBits_zero_f32, zero_add]
  refine Finset.sum_congr rfl fun k _ => ?_
  exact (congrArg (fun i => Ideal.exp (matShifted (F := Ideal) M i)) (lift_row redCols r k)).trans
    (congrArg Ideal.exp (matShifted_apply M r k))

/-- THE LOG-SOFTMAX MATRIX AT AN ENTRY. -/
theorem logSoftmaxMat_apply (M : FVec Ideal S8192x8192 .f32) (r c : Fin 8192) :
    logSoftmaxMat (F := Ideal) M (ix2 r c)
      = (M (ix2 r c) - rowMax (matRow M r)) - Ideal.log (rowSumExp (matRow M r)) := by
  unfold logSoftmaxMat
  refine (subf_apply _ _ _).trans (congrArg₂ (fun a b : EReal => a - b) (matShifted_apply M r c) ?_)
  refine (broadcastInDim_apply _ bc_S8192x1_S8192x8192 _ (ix2 r c) (ix2 r (0 : Fin 1)) (fun a => match a with
    | ⟨0, _⟩ => by show r.val = if (8192 : Nat) = 1 then 0 else r.val; rw [if_neg (by decide)]
    | ⟨1, _⟩ => by show 0 = if (1 : Nat) = 1 then 0 else c.val; rw [if_pos rfl])).trans ?_
  show Ideal.log (broadcastInDim (s := S8192) S8192x1 ![0] bc_S8192_S8192x1 _ (ix2 r (0 : Fin 1))) = _
  exact congrArg Ideal.log ((broadcastInDim_apply _ bc_S8192_S8192x1 _ (ix2 r (0 : Fin 1)) (ix1 r) (fun a => match a with
    | ⟨0, _⟩ => by show r.val = if (8192 : Nat) = 1 then 0 else r.val; rw [if_neg (by decide)])).trans (matSum_apply M r))

end Cert.Tail.MatRead

end
-- ==== Proof.LibGatherPair.lean ====
/-
  `stablehlo.gather` of a rank-2 operand at a rank-3 array of index PAIRS, read at an index.

  What `M[p, q]` of a matrix `M : [N0, N1]` at two integer arrays `p, q : [R, C]` lowers to: `lax.gather` with
  offset_dims `[]`, collapsed_slice_dims `[0, 1]`, start_index_map `[0, 1]`, slice_sizes `[1, 1]` and
  index_vector_dim 2 over the indices as `[R, C, 2]`. Result element `(t, j)` is `M` at the pair
  `(idx[t, j, 0], idx[t, j, 1])`, each component read as a signed integer and clamped into its axis, as StableHLO's
  gather clamps every start index. The companion of Lib/ValueIdx.lean's `gather_take_apply` (a rank-1 operand).
-/
import Idealize.ShloMosaic.Lib.ValueIdx

noncomputable section

namespace Idealize.ShloMosaic.ValueIdx

open Idealize.ShloMosaic

section Pair
variable {α : Type}

/-- Those dimension numbers for an operand `[N0, N1]`, start indices `[R, C, 2]` and result `[R, C]`; their
    conditions `wf` are decided on a program's literal shapes. -/
abbrev pairDims (N0 N1 R C : Nat)
    (wf : GatherDims.WF ⟨2, ![N0, N1]⟩ ⟨3, ![R, C, 2]⟩ ⟨2, ![R, C]⟩ [] [0, 1] [] [0, 1] [] 2 ![1, 1]) :
    GatherDims ⟨2, ![N0, N1]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- The start-indices index `[t, j, k]` of result index `(t, j)` and component `k`. -/
abbrev pairIdx {R C : Nat} (y : (⟨2, ![R, C]⟩ : Shape).Idx) (k : Fin 2) : (⟨3, ![R, C, 2]⟩ : Shape).Idx :=
  fun a => match a with | ⟨0, _⟩ => ⟨(y 0).val, idx2_lt0 y⟩ | ⟨1, _⟩ => ⟨(y 1).val, idx2_lt1 y⟩ | ⟨2, _⟩ => k

/-- THE ROW the gather reads at `(t, j)`: the start index's first component, read signed and clamped into
    `[0, N0 − 1]`. -/
theorem pair_operandIdx_row {N0 N1 R C w : Nat}
    (wf : GatherDims.WF ⟨2, ![N0, N1]⟩ ⟨3, ![R, C, 2]⟩ ⟨2, ![R, C]⟩ [] [0, 1] [] [0, 1] [] 2 ![1, 1])
    (idx : IVec ⟨3, ![R, C, 2]⟩ w) (y : (⟨2, ![R, C]⟩ : Shape).Idx) :
    ((pairDims N0 N1 R C wf).operandIdx y idx 0).val = min (idx (pairIdx y 0)).toInt.toNat (N0 - 1) := by
  show (pairDims N0 N1 R C wf).start y idx 0 + (pairDims N0 N1 R C wf).batchCoord y 0 + (pairDims N0 N1 R C wf).offCoord y 0 = _
  rw [GatherDims.batchCoord_eq_zero _ _ _ List.not_mem_nil,
    GatherDims.offCoord_eq_zero _ _ _ (fun h => ((GatherDims.mem_sKept _ _).mp h).1 (List.mem_cons_self))]
  simp only [Nat.add_zero]
  unfold GatherDims.start
  rw [dif_pos (show (0 : Fin 2) ∈ (pairDims N0 N1 R C wf).startIndexMap from List.mem_cons_self)]
  have hsi : (pairDims N0 N1 R C wf).siIdx y ⟨List.idxOf (0 : Fin 2) (pairDims N0 N1 R C wf).startIndexMap,
      List.idxOf_lt_length_iff.2 (List.mem_cons_self)⟩ = pairIdx y 0 := by
    funext b; refine Fin.ext ?_
    match b with
    | ⟨0, _⟩ => rfl
    | ⟨1, _⟩ => rfl
    | ⟨2, _⟩ => rfl
  rw [hsi]
  rfl

/-- THE COLUMN it reads: the second component, clamped into `[0, N1 − 1]`. -/
theorem pair_operandIdx_col {N0 N1 R C w : Nat}
    (wf : GatherDims.WF ⟨2, ![N0, N1]⟩ ⟨3, ![R, C, 2]⟩ ⟨2, ![R, C]⟩ [] [0, 1] [] [0, 1] [] 2 ![1, 1])
    (idx : IVec ⟨3, ![R, C, 2]⟩ w) (y : (⟨2, ![R, C]⟩ : Shape).Idx) :
    ((pairDims N0 N1 R C wf).operandIdx y idx 1).val = min (idx (pairIdx y 1)).toInt.toNat (N1 - 1) := by
  show (pairDims N0 N1 R C wf).start y idx 1 + (pairDims N0 N1 R C wf).batchCoord y 1 + (pairDims N0 N1 R C wf).offCoord y 1 = _
  rw [GatherDims.batchCoord_eq_zero _ _ _ List.not_mem_nil,
    GatherDims.offCoord_eq_zero _ _ _ (fun h => ((GatherDims.mem_sKept _ _).mp h).1
      (List.mem_cons_of_mem _ List.mem_cons_self))]
  simp only [Nat.add_zero]
  unfold GatherDims.start
  rw [dif_pos (show (1 : Fin 2) ∈ (pairDims N0 N1 R C wf).startIndexMap from List.mem_cons_of_mem _ List.mem_cons_self)]
  have hsi : (pairDims N0 N1 R C wf).siIdx y ⟨List.idxOf (1 : Fin 2) (pairDims N0 N1 R C wf).startIndexMap,
      List.idxOf_lt_length_iff.2 (List.mem_cons_of_mem _ List.mem_cons_self)⟩ = pairIdx y 1 := by
    funext b; refine Fin.ext ?_
    match b with
    | ⟨0, _⟩ => rfl
    | ⟨1, _⟩ => rfl
    | ⟨2, _⟩ => rfl
  rw [hsi]
  rfl

/-- THE GATHER READ AT `(t, j)`: the operand at that pair. -/
theorem gather_pair_apply {N0 N1 R C w : Nat} (h0 : 0 < N0) (h1 : 0 < N1)
    (wf : GatherDims.WF ⟨2, ![N0, N1]⟩ ⟨3, ![R, C, 2]⟩ ⟨2, ![R, C]⟩ [] [0, 1] [] [0, 1] [] 2 ![1, 1])
    (x : (⟨2, ![N0, N1]⟩ : Shape).Idx → α) (idx : IVec ⟨3, ![R, C, 2]⟩ w) (y : (⟨2, ![R, C]⟩ : Shape).Idx) :
    Host.gather (pairDims N0 N1 R C wf) x idx y
      = x (ix2 (⟨min (idx (pairIdx y 0)).toInt.toNat (N0 - 1), by omega⟩ : Fin N0)
            (⟨min (idx (pairIdx y 1)).toInt.toNat (N1 - 1), by omega⟩ : Fin N1)) := by
  unfold Host.gather
  congr 1
  funext a
  refine Fin.ext ?_
  match a with
  | ⟨0, _⟩ => exact pair_operandIdx_row wf idx y
  | ⟨1, _⟩ => exact pair_operandIdx_col wf idx y

end Pair

end Idealize.ShloMosaic.ValueIdx

end
-- ==== Proof.Bridge.lean ====
/-
  The two transition terms are one function of the arguments.

  At result index `(b, t)` both programs read the matrix at the SAME pair `(p, q)`: the pair gather clamps the two
  components of `idx[b, t, ·]`, whose first component is the wrapped `x[b, t]` — the very index the kernel's second
  gather (of the row log-sum-exps) clamps in the same way, the rows of the matrix and the entries of the flat vector
  being equally many. So the kernel's `M[p, q] − lse_p` and the reference's `(M[p, q] − max_p) − log S_p` speak
  of one row `p`, and the row law joins them, every entry of the matrix being a real number.
-/
import proofs.«153432_j81655918231782_2_alg».proof.Proof.HostTail
import proofs.«153432_j81655918231782_2_alg».proof.Proof.LseLaw
import proofs.«153432_j81655918231782_2_alg».proof.Proof.RefMatrix
import proofs.«153432_j81655918231782_2_alg».proof.Proof.LibGatherPair
import Idealize.ShloMosaic.Lib.Pipeline.Value

noncomputable section

namespace Cert.Tail.Bridge

open Idealize.ShloMosaic Idealize.ShloMosaic.ValueIdx Cert.Tail Cert.LseLaw Cert.Tail.MatRead

/-- The column of the matrix's row log-sum-exps, as an [8192, 1] array: what the kernel's region leaves. -/
def lseCol (M : FVec Ideal S8192x8192 .f32) : FVec Ideal S8192x1 .f32 :=
  fun i => lse (matRow M (⟨(i 0).val, idx2_lt0 i⟩ : Fin 8192))

/-- The column flattened reads, at `r`, its entry `(r, 0)`. -/
theorem flat_apply (L : FVec Ideal S8192x1 .f32) (r : Fin 8192) :
    shapeCast S8192 L sc_S8192x1_S8192 (ix1 r) = L (ix2 r (0 : Fin 1)) :=
  shapeCast_apply L sc_S8192x1_S8192 (ix1 r) (ix2 r (0 : Fin 1)) (by
    rewrite [Shape.rowMajor_val_two, Shape.rowMajor_val_one]
    show r.val * 1 + 0 = r.val
    omega)

/-- The first component of the index pair at `(b, t)` is the row index at `(b, t)`: both are the wrapped
    `x[b, t]`. -/
theorem pair_first (x : IVec S1024x512 32) (y : S1024x511.Idx) :
    idxPair x (pairIdx y 0) = idxRow x (takeIdx y) := by
  unfold idxPair idxRow
  exact concatenate_pair_apply_left 2 _ _ cat_pair (pairIdx y 0) rfl (takeIdx y) (fun b => match b with
    | ⟨0, _⟩ => rfl
    | ⟨1, _⟩ => rfl
    | ⟨2, _⟩ => rfl)

/-- THE BRIDGE: over a matrix of real numbers the kernel's transition terms are the reference's. -/
theorem trans_eq (x : IVec S1024x512 32) (M : FVec Ideal S8192x8192 .f32) (hM : ∀ i, M i ≠ ⊤ ∧ M i ≠ ⊥) :
    transKernel (F := Ideal) x M (lseCol M) = transRef (F := Ideal) x M := by
  funext y
  have hrow : ((gPair.operandIdx y (idxPair x)) 0).val = min ((idxRow x) (takeIdx y)).toInt.toNat (8192 - 1) :=
    (pair_operandIdx_row gPair_wf (idxPair x) y).trans (by rw [pair_first])
  obtain ⟨p, q, hpq⟩ : ∃ (p q : Fin 8192), gPair.operandIdx y (idxPair x) = ix2 p q := ⟨_, _, eq_ix2 _⟩
  have hp : p.val = min ((idxRow x) (takeIdx y)).toInt.toNat (8192 - 1) := by
    rw [← hrow, hpq]
  have hK : transKernel (F := Ideal) x M (lseCol M) y = M (ix2 p q) - lse (matRow M p) := by
    unfold transKernel transKernelOf
    refine (subf_apply _ _ _).trans (congrArg₂ (fun a b : EReal => a - b) ?_ ?_)
    · show M (gPair.operandIdx y (idxPair x)) = _
      rw [hpq]
    · refine (gather_take_apply (by decide) gRow_wf _ (idxRow x) y).trans ((flat_apply _ _).trans ?_)
      unfold lseCol
      exact congrArg (fun r => lse (matRow M r)) (Fin.ext hp.symm)
  have hR : transRef (F := Ideal) x M y
      = (M (ix2 p q) - rowMax (matRow M p)) - Ideal.log (rowSumExp (matRow M p)) := by
    unfold transRef
    show logSoftmaxMat (F := Ideal) M (gPair.operandIdx y (idxPair x)) = _
    rw [hpq]
    exact logSoftmaxMat_apply M p q
  rw [hK, hR]
  exact (logSoftmax_eq_sub_lse (matRow M p) (by decide) (fun k => (hM _).1) (fun k => (hM _).2) _ (hM _).1 (hM _).2).symm

end Cert.Tail.Bridge

end
-- ==== Proof.Finite.lean ====
/-
  What the precondition gives: every entry of the transition matrix is a real number. The printed precondition is the
  conjunction of two `jnp.all`s, one per float input, of `|x| < +∞` elementwise; the second, over the matrix,
  says at each index that the entry's absolute value is below +∞, which on the extended reals leaves neither
  infinity.
-/
import proofs.«153432_j81655918231782_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs

/-- The scalar shape has one index. -/
instance : Subsingleton S_.Idx := ⟨fun a b => funext fun d => d.elim0⟩

/-- The word of f32's +∞ denotes +∞. -/
theorem posInf_eq : Ideal.ofBits .f32 0x7F800000#32 = (⊤ : EReal) := by simp [Ideal.ofBits, Ideal.ieee]

/-- EVERY ENTRY OF THE MATRIX IS REAL where the precondition holds. -/
theorem matrix_real (x0 : IVec S1024x512 32) (x1 : FVec Ideal S8192 .f32) (x2 : FVec Ideal S8192x8192 .f32)
    (h : fn (F := Ideal) x0 x1 x2 = fun _ => 1#1) (i : S8192x8192.Idx) : x2 i ≠ ⊤ ∧ x2 i ≠ ⊥ := by
  have h0 := congrFun h ix0
  dsimp only [fn] at h0
  have h1 := (IntOp.andi_eq_one.1 h0).2
  have h2 := Host.reduce_andi_all _ _ _ _ _ h1 i
  have h3 : Ideal.cmp .olt (max (x2 i) (-(x2 i))) (Ideal.ofBits .f32 0x7F800000#32) = 1#1 := h2
  rw [posInf_eq] at h3
  constructor
  · intro ht
    rw [ht] at h3
    simp [Ideal.cmp] at h3
  · intro hb
    rw [hb] at h3
    simp [Ideal.cmp] at h3

end Cert.Pre_finite_inputs.Finite

end
-- ==== Proof.lean ====
/-
  A Markov chain's log-likelihood, two ways. For a batch of state sequences `x : i32[1024, 512]`, an
  initial-state vector `v : f32[8192]` and a transition matrix `M : f32[8192, 8192]`, both programs return, per
  batch row `b`,

      log_softmax(v)[x[b, 0]]  +  ∑_t  T[b, t],          t = 0 … 510,   p = x[b, t],   q = x[b, t + 1].

  The reference takes `T[b, t] = log_softmax(M)[p, q] = (M[p, q] − max_p) − log ∑_k exp (M[p, k] − max_p)`: it
  builds the whole log-softmax matrix and gathers from it. The kernel never builds that matrix: one pass over `M`
  in sixteen blocks of 512 whole rows leaves the 8192 row log-sum-exps `lse_p = max_p + log ∑_k exp (M[p, k] − max_p)`,
  and the host then takes `T[b, t] = M[p, q] − lse_p` from two gathers. Read on the extended reals, where every
  float operation is exact, the two `T` agree entry by entry as soon as `M[p, q]` and `max_p` are real numbers:
  `(a − m) − l = a − (m + l)` for real `a`, `m` and ANY `l`. That is where the precondition — every float input
  finite — is used, and the only place; the indices are free (negative ones wrap, every gather clamps, and the two
  programs wrap and clamp alike, the matrix's rows and the vector of row log-sum-exps having one extent).

  The modules: LseLaw (the law, and that a row of reals has a real maximum); KernelRow, KernelArray (what the
  kernel body stores at a row, and the output array after the sixteen points); HostTail (the host-side terms the
  two programs share); KernelTail (the kernel program's run, its three host stretches after the region read one by
  one); RefRun, RefValue (the reference's straight line and its run, read in three stretches); RefMatrix (the
  log-softmax matrix at an entry); LibGatherPair, LibAfterAppend, LibTypedRef (a pair gather at an index; a line of
  host operations run in two stretches; a typed reference written and read back); Bridge (the two transition terms are one function); Finite (the precondition
  makes the matrix's entries real).
-/
import proofs.«153432_j81655918231782_2_alg».proof.Defs
import proofs.«153432_j81655918231782_2_alg».proof.Proof.Gen.Kernel
import proofs.«153432_j81655918231782_2_alg».proof.Proof.Gen.Kernel.Skeleton
import proofs.«153432_j81655918231782_2_alg».proof.Proof.Gen.Kernel.Launch
import proofs.«153432_j81655918231782_2_alg».proof.Proof.Gen.Kernel.Points
import proofs.«153432_j81655918231782_2_alg».proof.Proof.Gen.Kernel.Frame
import proofs.«153432_j81655918231782_2_alg».proof.Proof.Gen.KernelIdeal
import proofs.«153432_j81655918231782_2_alg».proof.Proof.Gen.KernelIdeal.Skeleton
import proofs.«153432_j81655918231782_2_alg».proof.Proof.Gen.KernelIdeal.Launch
import proofs.«153432_j81655918231782_2_alg».proof.Proof.Gen.KernelIdeal.Points
import proofs.«153432_j81655918231782_2_alg».proof.Proof.Gen.KernelIdeal.Frame
import proofs.«153432_j81655918231782_2_alg».proof.Proof.Gen.ReferenceIdeal
import proofs.«153432_j81655918231782_2_alg».proof.Proof.Gen.Pre_finite_inputs
import proofs.«153432_j81655918231782_2_alg».proof.Proof.KernelTail
import proofs.«153432_j81655918231782_2_alg».proof.Proof.RefValue
import proofs.«153432_j81655918231782_2_alg».proof.Proof.Bridge
import proofs.«153432_j81655918231782_2_alg».proof.Proof.Finite
import Idealize.ShloMosaic.Adequacy
import Idealize.ShloMosaic.Init

noncomputable section

namespace Cert.Proof

open Idealize.ShloMosaic Idealize.SL.Sem

/-- The word-level kernel program runs and keeps its arguments: its frame is generated whole. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The idealized reference is a straight line of host operations: its run, with the result dropped. -/
theorem frame_referenceIdeal : Cert.frame_ReferenceIdeal := fun m ρ _ =>
  (θ_run Cert.ReferenceIdeal.defs _ _).mono (fun _ h c => (h c).2) (Cert.ReferenceIdeal.LineValue.run m ρ)

/-- The ideal pass rewrote nothing: there is nothing to preserve. -/
theorem preserves : Cert.preserves_Kernel_KernelIdeal := trivial

/-- From memories agreeing on the arguments both idealized programs end with the initial log-probability plus the row
    sums of the transition terms; the kernel's terms are the reference's because the matrix's entries are real
    (the bridge, under the precondition). -/
theorem algebraic : Cert.algebraic_KernelIdeal_ReferenceIdeal := by
  intro m ρ m' ρ' hpre hagree
  refine ⟨fun c => Cert.Tail.finish (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.Tail.transRef (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩)
      (Cert.KernelIdeal.TailRun.run m ρ)
    exact congrArg (Cert.Tail.finish (F := Ideal) _ _)
      (Cert.Tail.Bridge.trans_eq _ _ (fun i => Cert.Pre_finite_inputs.Finite.matrix_real _ _ _ (hpre c) i))
  · refine (θ_run Cert.ReferenceIdeal.defs _ _).mono (fun _ h c => ⟨(h c).1.trans ?_, (h c).2⟩)
      (Cert.ReferenceIdeal.LineValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
